-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x200000 : Shape := ⟨2, ![2, 200000]⟩
abbrev S128x256 : Shape := ⟨2, ![128, 256]⟩
abbrev S256 : Shape := ⟨1, ![256]⟩
abbrev S256x256 : Shape := ⟨2, ![256, 256]⟩
abbrev S512x256 : Shape := ⟨2, ![512, 256]⟩
abbrev S256x128 : Shape := ⟨2, ![256, 128]⟩
abbrev S128 : Shape := ⟨1, ![128]⟩
abbrev S128x18 : Shape := ⟨2, ![128, 18]⟩
abbrev S18 : Shape := ⟨1, ![18]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S512x256 : S_.BroadcastsInDim S512x256 (![] : Fin 0 → Fin S512x256.rank)
  reducesTo_S512x256_S_d0_1 : S512x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x18 : S_.BroadcastsInDim S128x18 (![] : Fin 0 → Fin S128x18.rank)
  reducesTo_S128x18_S_d0_1 : S128x18.ReducesTo [0, 1] S_
  bcast_S_S18 : S_.BroadcastsInDim S18 (![] : Fin 0 → Fin S18.rank)
  reducesTo_S18_S_d0 : S18.ReducesTo [0] S_

variable [Facts]

def fn_part3 {F : FTy → Type} [FloatOps F] (main_arg12 : FVec F S128x18 .f32) (main_arg13 : FVec F S18 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x18 .f32 := Host.absf main_arg12
  let main_cst_20 : FVec F S_ .f32 := constant S_ .f32 0x7F800000#32
  let main_v55 : FVec F S128x18 .f32 := broadcastInDim S128x18 ![] bcast_S_S128x18 main_cst_20
  let main_v56 : IVec S128x18 1 := cmpf .olt main_v54 main_v55
  let main_c_21 : IVec S_ 1 := constantI S_ 1 1#1
  let main_v57 : IVec S_ 1 := (fun x v => Host.reduce IntOp.andi x v reducesTo_S128x18_S_d0_1 h_S_) main_v56 main_c_21
  let main_v58 : IVec S_ 1 := andi main_v53 main_v57
  let main_v59 : FVec F S18 .f32 := Host.absf main_arg13
  let main_cst_22 : FVec F S_ .f32 := constant S_ .f32 0x7F800000#32
  let main_v60 : FVec F S18 .f32 := broadcastInDim S18 ![] bcast_S_S18 main_cst_22
  let main_v61 : IVec S18 1 := cmpf .olt main_v59 main_v60
  let main_c_23 : IVec S_ 1 := constantI S_ 1 1#1
  let main_v62 : IVec S_ 1 := (fun x v => Host.reduce IntOp.andi x v reducesTo_S18_S_d0 h_S_) main_v61 main_c_23
  let main_v63 : IVec S_ 1 := andi main_v58 main_v62
  main_v63

def fn_part2 {F : FTy → Type} [FloatOps F] (main_arg8 : FVec F S512x256 .f32) (main_arg9 : FVec F S256 .f32) (main_arg10 : FVec F S256x128 .f32) (main_arg11 : FVec F S128 .f32) (main_arg12 : FVec F S128x18 .f32) (main_arg13 : FVec F S18 .f32) (main_v33 : IVec S_ 1) : IVec S_ 1 :=
  let main_v34 : FVec F S512x256 .f32 := Host.absf main_arg8
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S256 .f32) (main_arg6 : FVec F S256x256 .f32) (main_arg7 : FVec F S256 .f32) (main_arg8 : FVec F S512x256 .f32) (main_arg9 : FVec F S256 .f32) (main_arg10 : FVec F S256x128 .f32) (main_arg11 : FVec F S128 .f32) (main_arg12 : FVec F S128x18 .f32) (main_arg13 : FVec F S18 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x200000 32) (main_arg2 : FVec F S128x256 .f32) (main_arg3 : FVec F S256 .f32) (main_arg4 : FVec F S256x256 .f32) (main_arg5 : FVec F S256 .f32) (main_arg6 : FVec F S256x256 .f32) (main_arg7 : FVec F S256 .f32) (main_arg8 : FVec F S512x256 .f32) (main_arg9 : FVec F S256 .f32) (main_arg10 : FVec F S256x128 .f32) (main_arg11 : FVec F S128 .f32) (main_arg12 : FVec F S128x18 .f32) (main_arg13 : FVec F S18 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x200000 : Shape := ⟨2, ![2, 200000]⟩
abbrev S128x256 : Shape := ⟨2, ![128, 256]⟩
abbrev S256 : Shape := ⟨1, ![256]⟩
abbrev S256x256 : Shape := ⟨2, ![256, 256]⟩
abbrev S512x256 : Shape := ⟨2, ![512, 256]⟩
abbrev S256x128 : Shape := ⟨2, ![256, 128]⟩
abbrev S128 : Shape := ⟨1, ![128]⟩
abbrev S128x18 : Shape := ⟨2, ![128, 18]⟩
abbrev S18 : Shape := ⟨1, ![18]⟩
abbrev S1x200000 : Shape := ⟨2, ![1, 200000]⟩
abbrev S200000 : Shape := ⟨1, ![200000]⟩
abbrev S_ : Shape := ⟨0, ![]⟩
abbrev S50000 : Shape := ⟨1, ![50000]⟩
abbrev S200000x1 : Shape := ⟨2, ![200000, 1]⟩
abbrev S50000x1 : Shape := ⟨2, ![50000, 1]⟩
abbrev S50000x256 : Shape := ⟨2, ![50000, 256]⟩
abbrev S200000x256 : Shape := ⟨2, ![200000, 256]⟩
abbrev S1x256 : Shape := ⟨2, ![1, 256]⟩
abbrev S1x128 : Shape := ⟨2, ![1, 128]⟩
abbrev S1x18 : Shape := ⟨2, ![1, 18]⟩
abbrev S200000x18 : Shape := ⟨2, ![200000, 18]⟩
abbrev S4000x256 : Shape := ⟨2, ![4000, 256]⟩
abbrev S4000x18 : Shape := ⟨2, ![4000, 18]⟩
abbrev S4000x128 : Shape := ⟨2, ![4000, 128]⟩

abbrev nBuf : Space → Nat
  | .hbm => 146
  | .vmem => 13
  | .smem => 0
  | _ => 0

abbrev hbmTy0_0 (i : Nat) : BufTy := match i % 128 with
  | 0 => ⟨S50000x128, .f32⟩
  | 1 => ⟨S2x200000, .i32⟩
  | 2 => ⟨S128x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S512x256, .f32⟩
  | 9 => ⟨S256, .f32⟩
  | 10 => ⟨S256x128, .f32⟩
  | 11 => ⟨S128, .f32⟩
  | 12 => ⟨S128x18, .f32⟩
  | 13 => ⟨S18, .f32⟩
  | 14 => ⟨S1x200000, .i32⟩
  | 15 => ⟨S200000, .i32⟩
  | 16 => ⟨S1x200000, .i32⟩
  | 17 => ⟨S200000, .i32⟩
  | 18 => ⟨S_, .f32⟩
  | 19 => ⟨S200000, .f32⟩
  | 20 => ⟨S_, .f32⟩
  | 21 => ⟨S50000, .f32⟩
  | 22 => ⟨S200000x1, .i32⟩
  | 23 => ⟨S50000, .f32⟩
  | 24 => ⟨S_, .f32⟩
  | 25 => ⟨S50000, .f32⟩
  | 26 => ⟨S50000, .f32⟩
  | 27 => ⟨S50000, .f32⟩
  | 28 => ⟨S_, .i32⟩
  | 29 => ⟨S200000, .i32⟩
  | 30 => ⟨S200000, .i1⟩
  | 31 => ⟨S_, .i32⟩
  | 32 => ⟨S200000, .i32⟩
  | 33 => ⟨S200000, .i32⟩
  | 34 => ⟨S200000, .i32⟩
  | 35 => ⟨S200000x1, .i32⟩
  | 36 => ⟨S200000, .f32⟩
  | 37 => ⟨S_, .i32⟩
  | 38 => ⟨S200000, .i32⟩
  | 39 => ⟨S200000, .i1⟩
  | 40 => ⟨S_, .i32⟩
  | 41 => ⟨S200000, .i32⟩
  | 42 => ⟨S200000, .i32⟩
  | 43 => ⟨S200000, .i32⟩
  | 44 => ⟨S200000x1, .i32⟩
  | 45 => ⟨S200000, .f32⟩
  | 46 => ⟨S200000, .f32⟩
  | 47 => ⟨S200000x1, .f32⟩
  | 48 => ⟨S50000, .f32⟩
  | 49 => ⟨S50000x1, .f32⟩
  | 50 => ⟨S50000x256, .f32⟩
  | 51 => ⟨S_, .i32⟩
  | 52 => ⟨S200000, .i32⟩
  | 53 => ⟨S200000, .i1⟩
  | 54 => ⟨S_, .i32⟩
  | 55 => ⟨S200000, .i32⟩
  | 56 => ⟨S200000, .i32⟩
  | 57 => ⟨S200000, .i32⟩
  | 58 => ⟨S200000x1, .i32⟩
  | 59 => ⟨S200000x256, .f32⟩
  | 60 => ⟨S200000x256, .f32⟩
  | 61 => ⟨S200000x256, .f32⟩
  | 62 => ⟨S_, .f32⟩
  | 63 => ⟨S50000x256, .f32⟩
  | 64 => ⟨S200000x1, .i32⟩
  | 65 => ⟨S50000x256, .f32⟩
  | 66 => ⟨S50000x256, .f32⟩
  | 67 => ⟨S50000x256, .f32⟩
  | 68 => ⟨S50000x256, .f32⟩
  | 69 => ⟨S1x256, .f32⟩
  | 70 => ⟨S50000x256, .f32⟩
  | 71 => ⟨S50000x256, .f32⟩
  | 72 => ⟨S_, .f32⟩
  | 73 => ⟨S50000x256, .f32⟩
  | 74 => ⟨S50000x256, .f32⟩
  | 75 => ⟨S50000x256, .f32⟩
  | 76 => ⟨S_, .i32⟩
  | 77 => ⟨S200000, .i32⟩
  | 78 => ⟨S200000, .i1⟩
  | 79 => ⟨S_, .i32⟩
  | 80 => ⟨S200000, .i32⟩
  | 81 => ⟨S200000, .i32⟩
  | 82 => ⟨S200000, .i32⟩
  | 83 => ⟨S200000x1, .i32⟩
  | 84 => ⟨S200000x256, .f32⟩
  | 85 => ⟨S200000x256, .f32⟩
  | 86 => ⟨S200000x256, .f32⟩
  | 87 => ⟨S_, .f32⟩
  | 88 => ⟨S50000x256, .f32⟩
  | 89 => ⟨S200000x1, .i32⟩
  | 90 => ⟨S50000x256, .f32⟩
  | 91 => ⟨S50000x256, .f32⟩
  | 92 => ⟨S50000x256, .f32⟩
  | 93 => ⟨S50000x256, .f32⟩
  | 94 => ⟨S1x256, .f32⟩
  | 95 => ⟨S50000x256, .f32⟩
  | 96 => ⟨S50000x256, .f32⟩
  | 97 => ⟨S_, .f32⟩
  | 98 => ⟨S50000x256, .f32⟩
  | 99 => ⟨S50000x256, .f32⟩
  | 100 => ⟨S50000x256, .f32⟩
  | 101 => ⟨S_, .i32⟩
  | 102 => ⟨S200000, .i32⟩
  | 103 => ⟨S200000, .i1⟩
  | 104 => ⟨S_, .i32⟩
  | 105 => ⟨S200000, .i32⟩
  | 106 => ⟨S200000, .i32⟩
  | 107 => ⟨S200000, .i32⟩
  | 108 => ⟨S200000x1, .i32⟩
  | 109 => ⟨S200000x256, .f32⟩
  | 110 => ⟨S200000x256, .f32⟩
  | 111 => ⟨S200000x256, .f32⟩
  | 112 => ⟨S_, .f32⟩
  | 113 => ⟨S50000x256, .f32⟩
  | 114 => ⟨S200000x1, .i32⟩
  | 115 => ⟨S50000x256, .f32⟩
  | 116 => ⟨S50000x256, .f32⟩
  | 117 => ⟨S50000x256, .f32⟩
  | 118 => ⟨S50000x256, .f32⟩
  | 119 => ⟨S1x256, .f32⟩
  | 120 => ⟨S50000x256, .f32⟩
  | 121 => ⟨S50000x256, .f32⟩
  | 122 => ⟨S_, .i32⟩
  | 123 => ⟨S200000, .i32⟩
  | 124 => ⟨S200000, .i1⟩
  | 125 => ⟨S_, .i32⟩
  | 126 => ⟨S200000, .i32⟩
  | 127 => ⟨S200000, .i32⟩
  | _ => ⟨S50000x128, .f32⟩

abbrev hbmTy0_1 (i : Nat) : BufTy := match i % 128 with
  | 0 => ⟨S200000, .i32⟩
  | 1 => ⟨S200000x1, .i32⟩
  | 2 => ⟨S200000x256, .f32⟩
  | 3 => ⟨S_, .i32⟩
  | 4 => ⟨S200000, .i32⟩
  | 5 => ⟨S200000, .i1⟩
  | 6 => ⟨S_, .i32⟩
  | 7 => ⟨S200000, .i32⟩
  | 8 => ⟨S200000, .i32⟩
  | 9 => ⟨S200000, .i32⟩
  | 10 => ⟨S200000x1, .i32⟩
  | 11 => ⟨S200000x256, .f32⟩
  | 12 => ⟨S256x256, .f32⟩
  | 13 => ⟨S256x256, .f32⟩
  | 14 => ⟨S1x256, .f32⟩
  | 15 => ⟨S1x128, .f32⟩
  | 16 => ⟨S1x18, .f32⟩
  | 17 => ⟨S200000x18, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S4000x256, .f32⟩
  | .local _ .vmem, ⟨1, _⟩ => ⟨S4000x256, .f32⟩
  | .local _ .vmem, ⟨2, _⟩ => ⟨S4000x256, .f32⟩
  | .local _ .vmem, ⟨3, _⟩ => ⟨S4000x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S256x128, .f32⟩
  | .local _ .vmem, ⟨8, _⟩ => ⟨S1x128, .f32⟩
  | .local _ .vmem, ⟨9, _⟩ => ⟨S128x18, .f32⟩
  | .local _ .vmem, ⟨10, _⟩ => ⟨S1x18, .f32⟩
  | .local _ .vmem, ⟨11, _⟩ => ⟨S4000x18, .f32⟩
  | .local _ .vmem, ⟨12, _⟩ => ⟨S4000x18, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call0_cst : Ref sig .tc := ⟨.hbm, 72, rfl⟩
abbrev main_call0_v0 : Ref sig .tc := ⟨.hbm, 73, rfl⟩
abbrev main_v48 : Ref sig .tc := ⟨.hbm, 74, rfl⟩
abbrev main_v49 : Ref sig .tc := ⟨.hbm, 75, rfl⟩
abbrev main_c_8 : Ref sig .tc := ⟨.hbm, 76, rfl⟩
abbrev main_v50 : Ref sig .tc := ⟨.hbm, 77, rfl⟩
abbrev main_v51 : Ref sig .tc := ⟨.hbm, 78, rfl⟩
abbrev main_c_9 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_10 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_call1_cst : Ref sig .tc := ⟨.hbm, 97, rfl⟩
abbrev main_call1_v0 : Ref sig .tc := ⟨.hbm, 98, rfl⟩
abbrev main_v68 : Ref sig .tc := ⟨.hbm, 99, rfl⟩
abbrev main_v69 : Ref sig .tc := ⟨.hbm, 100, rfl⟩
abbrev main_c_11 : Ref sig .tc := ⟨.hbm, 101, rfl⟩
abbrev main_v70 : Ref sig .tc := ⟨.hbm, 102, rfl⟩
abbrev main_v71 : Ref sig .tc := ⟨.hbm, 103, rfl⟩
abbrev main_c_12 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_13 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_c_14 : Ref sig .tc := ⟨.hbm, 122, rfl⟩
abbrev main_v88 : Ref sig .tc := ⟨.hbm, 123, rfl⟩
abbrev main_v89 : Ref sig .tc := ⟨.hbm, 124, rfl⟩
abbrev main_c_15 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_c_16 : Ref sig .tc := ⟨.hbm, 131, rfl⟩
abbrev main_v95 : Ref sig .tc := ⟨.hbm, 132, rfl⟩
abbrev main_v96 : Ref sig .tc := ⟨.hbm, 133, rfl⟩
abbrev main_c_17 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x18 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x18 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x18 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S_S50000 : S_.BroadcastsInDim S50000 (![] : Fin 0 → Fin S50000.rank)
  bcast_S200000_S200000x1_0 : S200000.BroadcastsInDim S200000x1 (![0] : Fin 1 → Fin S200000x1.rank)
  bcast_S50000_S50000x1_0 : S50000.BroadcastsInDim S50000x1 (![0] : Fin 1 → Fin S50000x1.rank)
  bcast_S200000x1_S200000x256_0_1 : S200000x1.BroadcastsInDim S200000x256 (![0, 1] : Fin 2 → Fin S200000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S512x256_S256x256_0_0 : S512x256.Slices ![0, 0] S256x256
  slices_S512x256_S256x256_256_0 : S512x256.Slices ![256, 0] S256x256
  shapeCasts_S256_S1x256 : S256.ShapeCasts S1x256
  shapeCasts_S128_S1x128 : S128.ShapeCasts S1x128
  shapeCasts_S18_S1x18 : S18.ShapeCasts S1x18
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x18_S128x18_0_0 : ∀ a, (![0, 0] : Fin 2 → Nat) a + S128x18.size a ≤ S128x18.size a
  h_S128x18 : 0 < S128x18.numel
  inb_S1x18_S1x18_0_0 : ∀ a, (![0, 0] : Fin 2 → Nat) a + S1x18.size a ≤ S1x18.size a
  h_S1x18 : 0 < S1x18.numel
  shapeCasts_S1x18_S1x18 : S1x18.ShapeCasts S1x18
  broadcasts_S1x18_S4000x18 : S1x18.Broadcasts S4000x18
  inb_S4000x18_S4000x18_0_0 : ∀ a, (![0, 0] : Fin 2 → Nat) a + S4000x18.size a ≤ S4000x18.size a
  h_S4000x18 : 0 < S4000x18.numel
  scatter_S50000_S200000x1_S200000_n_0_0_1_wf : ScatterDims.WF S50000 S200000x1 S200000 [] [0] [0] 1
  gather_S50000_S200000x1_S200000_n_0_n_n_0_1_1_wf : GatherDims.WF S50000 S200000x1 S200000 [] [0] [] [0] [] 1 ![1]
  dot_S50000x128_S128x256_S50000x256_1_0_0_1_n_n_wf : DotDims.WF S50000x128 S128x256 S50000x256 [1] [0] [0] [1] [] []
  gather_S50000x256_S200000x1_S200000x256_1_0_n_n_0_1_1256_wf : GatherDims.WF S50000x256 S200000x1 S200000x256 [1] [0] [] [0] [] 1 ![1, 256]
  scatter_S50000x256_S200000x1_S200000x256_1_0_0_1_wf : ScatterDims.WF S50000x256 S200000x1 S200000x256 [1] [0] [0] 1
  dot_S50000x256_S256x256_S50000x256_1_0_0_1_n_n_wf : DotDims.WF S50000x256 S256x256 S50000x256 [1] [0] [0] [1] [] []
  dot_S4000x256_S256x256_S4000x256_1_0_0_1_n_n_wf : DotDims.WF S4000x256 S256x256 S4000x256 [1] [0] [0] [1] [] []
  dot_S4000x256_S256x128_S4000x128_1_0_0_1_n_n_wf : DotDims.WF S4000x256 S256x128 S4000x128 [1] [0] [0] [1] [] []
  dot_S4000x128_S128x18_S4000x18_1_0_0_1_n_n_wf : DotDims.WF S4000x128 S128x18 S4000x18 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S200000x256.size a
  hwx0_0 : ∀ i : grid0.Coords, EltTy.bits .f32 = 32 ∨ (Rect.block (s := S200000x256) S4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x256.size a ≤ S200000x256.size a
  hwx0_1 : ∀ i : grid0.Coords, EltTy.bits .f32 = 32 ∨ (Rect.block (s := S200000x256) S4000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x18.size a ≤ S128x18.size a
  hwx0_7 : ∀ i : grid0.Coords, EltTy.bits .f32 = 32 ∨ (Rect.block (s := S128x18) S128x18.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x18.size a ≤ S1x18.size a
  hwx0_8 : ∀ i : grid0.Coords, EltTy.bits .f32 = 32 ∨ (Rect.block (s := S1x18) S1x18.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x18.size a ≤ S200000x18.size a
  hwx0_9 : ∀ i : grid0.Coords, EltTy.bits .f32 = 32 ∨ (Rect.block (s := S200000x18) S4000x18.size (cc0_transform_9 i) (hinb0_9 i)).WholeWords (EltTy.packing .f32)

variable [Facts₀]

def scatter_S50000_S200000x1_S200000_n_0_0_1 : ScatterDims S50000 S200000x1 S200000 where
  updateWindowDims := []
  insertedWindowDims := [0]
  scatterDimsToOperandDims := [0]
  indexVectorDim := 1
  wf := scatter_S50000_S200000x1_S200000_n_0_0_1_wf
def gather_S50000_S200000x1_S200000_n_0_n_n_0_1_1 : GatherDims S50000 S200000x1 S200000 where
  offsetDims := []
  collapsedSliceDims := [0]
  operandBatchingDims := []
  startIndicesBatchingDims := []
  startIndexMap := [0]
  indexVectorDim := 1
  sliceSizes := ![1]
  wf := gather_S50000_S200000x1_S200000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S200000x1_S200000x256_1_0_n_n_0_1_1256 : GatherDims S50000x256 S200000x1 S200000x256 where
  offsetDims := [1]
  collapsedSliceDims := [0]
  operandBatchingDims := []
  startIndicesBatchingDims := []
  startIndexMap := [0]
  indexVectorDim := 1
  sliceSizes := ![1, 256]
  wf := gather_S50000x256_S200000x1_S200000x256_1_0_n_n_0_1_1256_wf
def scatter_S50000x256_S200000x1_S200000x256_1_0_0_1 : ScatterDims S50000x256 S200000x1 S200000x256 where
  updateWindowDims := [1]
  insertedWindowDims := [0]
  scatterDimsToOperandDims := [0]
  indexVectorDim := 1
  wf := scatter_S50000x256_S200000x1_S200000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S4000x128_S128x18_S4000x18_1_0_0_1_n_n : DotDims S4000x128 S128x18 S4000x18 where
  lhsContracting := [1]
  rhsContracting := [0]
  lhsNonContracting := [0]
  rhsNonContracting := [1]
  lhsBatch := []
  rhsBatch := []
  wf := dot_S4000x128_S128x18_S4000x18_1_0_0_1_n_n_wf

abbrev win0_0 : Pipeline.Window sig grid0 :=
  Pipeline.Window.ofSpec (Memref.whole main_v94) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v101) S4000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v102) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v103) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v104) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg10) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v105) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg12) S128x18.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v106) S1x18.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v107) S4000x18.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x200000 : Shape := ⟨2, ![2, 200000]⟩
abbrev S128x256 : Shape := ⟨2, ![128, 256]⟩
abbrev S256 : Shape := ⟨1, ![256]⟩
abbrev S256x256 : Shape := ⟨2, ![256, 256]⟩
abbrev S512x256 : Shape := ⟨2, ![512, 256]⟩
abbrev S256x128 : Shape := ⟨2, ![256, 128]⟩
abbrev S128 : Shape := ⟨1, ![128]⟩
abbrev S128x18 : Shape := ⟨2, ![128, 18]⟩
abbrev S18 : Shape := ⟨1, ![18]⟩
abbrev S1x200000 : Shape := ⟨2, ![1, 200000]⟩
abbrev S200000 : Shape := ⟨1, ![200000]⟩
abbrev S_ : Shape := ⟨0, ![]⟩
abbrev S50000 : Shape := ⟨1, ![50000]⟩
abbrev S200000x1 : Shape := ⟨2, ![200000, 1]⟩
abbrev S50000x1 : Shape := ⟨2, ![50000, 1]⟩
abbrev S50000x256 : Shape := ⟨2, ![50000, 256]⟩
abbrev S200000x256 : Shape := ⟨2, ![200000, 256]⟩
abbrev S1x256 : Shape := ⟨2, ![1, 256]⟩
abbrev S200000x512 : Shape := ⟨2, ![200000, 512]⟩
abbrev S200000x128 : Shape := ⟨2, ![200000, 128]⟩
abbrev S1x128 : Shape := ⟨2, ![1, 128]⟩
abbrev S200000x18 : Shape := ⟨2, ![200000, 18]⟩
abbrev S1x18 : Shape := ⟨2, ![1, 18]⟩

abbrev nBuf : Space → Nat
  | .hbm => 159
  | .vmem => 0
  | .smem => 0
  | _ => 0

abbrev hbmTy0_0 (i : Nat) : BufTy := match i % 128 with
  | 0 => ⟨S50000x128, .f32⟩
  | 1 => ⟨S2x200000, .i32⟩
  | 2 => ⟨S128x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S512x256, .f32⟩
  | 9 => ⟨S256, .f32⟩
  | 10 => ⟨S256x128, .f32⟩
  | 11 => ⟨S128, .f32⟩
  | 12 => ⟨S128x18, .f32⟩
  | 13 => ⟨S18, .f32⟩
  | 14 => ⟨S1x200000, .i32⟩
  | 15 => ⟨S200000, .i32⟩
  | 16 => ⟨S1x200000, .i32⟩
  | 17 => ⟨S200000, .i32⟩
  | 18 => ⟨S_, .f32⟩
  | 19 => ⟨S200000, .f32⟩
  | 20 => ⟨S_, .f32⟩
  | 21 => ⟨S50000, .f32⟩
  | 22 => ⟨S200000x1, .i32⟩
  | 23 => ⟨S50000, .f32⟩
  | 24 => ⟨S_, .f32⟩
  | 25 => ⟨S50000, .f32⟩
  | 26 => ⟨S50000, .f32⟩
  | 27 => ⟨S50000, .f32⟩
  | 28 => ⟨S_, .i32⟩
  | 29 => ⟨S200000, .i32⟩
  | 30 => ⟨S200000, .i1⟩
  | 31 => ⟨S_, .i32⟩
  | 32 => ⟨S200000, .i32⟩
  | 33 => ⟨S200000, .i32⟩
  | 34 => ⟨S200000, .i32⟩
  | 35 => ⟨S200000x1, .i32⟩
  | 36 => ⟨S200000, .f32⟩
  | 37 => ⟨S_, .i32⟩
  | 38 => ⟨S200000, .i32⟩
  | 39 => ⟨S200000, .i1⟩
  | 40 => ⟨S_, .i32⟩
  | 41 => ⟨S200000, .i32⟩
  | 42 => ⟨S200000, .i32⟩
  | 43 => ⟨S200000, .i32⟩
  | 44 => ⟨S200000x1, .i32⟩
  | 45 => ⟨S200000, .f32⟩
  | 46 => ⟨S200000, .f32⟩
  | 47 => ⟨S200000x1, .f32⟩
  | 48 => ⟨S50000, .f32⟩
  | 49 => ⟨S50000x1, .f32⟩
  | 50 => ⟨S50000x256, .f32⟩
  | 51 => ⟨S_, .i32⟩
  | 52 => ⟨S200000, .i32⟩
  | 53 => ⟨S200000, .i1⟩
  | 54 => ⟨S_, .i32⟩
  | 55 => ⟨S200000, .i32⟩
  | 56 => ⟨S200000, .i32⟩
  | 57 => ⟨S200000, .i32⟩
  | 58 => ⟨S200000x1, .i32⟩
  | 59 => ⟨S200000x256, .f32⟩
  | 60 => ⟨S200000x256, .f32⟩
  | 61 => ⟨S200000x256, .f32⟩
  | 62 => ⟨S_, .f32⟩
  | 63 => ⟨S50000x256, .f32⟩
  | 64 => ⟨S200000x1, .i32⟩
  | 65 => ⟨S50000x256, .f32⟩
  | 66 => ⟨S50000x256, .f32⟩
  | 67 => ⟨S50000x256, .f32⟩
  | 68 => ⟨S50000x256, .f32⟩
  | 69 => ⟨S1x256, .f32⟩
  | 70 => ⟨S50000x256, .f32⟩
  | 71 => ⟨S50000x256, .f32⟩
  | 72 => ⟨S_, .f32⟩
  | 73 => ⟨S50000x256, .f32⟩
  | 74 => ⟨S50000x256, .f32⟩
  | 75 => ⟨S50000x256, .f32⟩
  | 76 => ⟨S_, .i32⟩
  | 77 => ⟨S200000, .i32⟩
  | 78 => ⟨S200000, .i1⟩
  | 79 => ⟨S_, .i32⟩
  | 80 => ⟨S200000, .i32⟩
  | 81 => ⟨S200000, .i32⟩
  | 82 => ⟨S200000, .i32⟩
  | 83 => ⟨S200000x1, .i32⟩
  | 84 => ⟨S200000x256, .f32⟩
  | 85 => ⟨S200000x256, .f32⟩
  | 86 => ⟨S200000x256, .f32⟩
  | 87 => ⟨S_, .f32⟩
  | 88 => ⟨S50000x256, .f32⟩
  | 89 => ⟨S200000x1, .i32⟩
  | 90 => ⟨S50000x256, .f32⟩
  | 91 => ⟨S50000x256, .f32⟩
  | 92 => ⟨S50000x256, .f32⟩
  | 93 => ⟨S50000x256, .f32⟩
  | 94 => ⟨S1x256, .f32⟩
  | 95 => ⟨S50000x256, .f32⟩
  | 96 => ⟨S50000x256, .f32⟩
  | 97 => ⟨S_, .f32⟩
  | 98 => ⟨S50000x256, .f32⟩
  | 99 => ⟨S50000x256, .f32⟩
  | 100 => ⟨S50000x256, .f32⟩
  | 101 => ⟨S_, .i32⟩
  | 102 => ⟨S200000, .i32⟩
  | 103 => ⟨S200000, .i1⟩
  | 104 => ⟨S_, .i32⟩
  | 105 => ⟨S200000, .i32⟩
  | 106 => ⟨S200000, .i32⟩
  | 107 => ⟨S200000, .i32⟩
  | 108 => ⟨S200000x1, .i32⟩
  | 109 => ⟨S200000x256, .f32⟩
  | 110 => ⟨S200000x256, .f32⟩
  | 111 => ⟨S200000x256, .f32⟩
  | 112 => ⟨S_, .f32⟩
  | 113 => ⟨S50000x256, .f32⟩
  | 114 => ⟨S200000x1, .i32⟩
  | 115 => ⟨S50000x256, .f32⟩
  | 116 => ⟨S50000x256, .f32⟩
  | 117 => ⟨S50000x256, .f32⟩
  | 118 => ⟨S50000x256, .f32⟩
  | 119 => ⟨S1x256, .f32⟩
  | 120 => ⟨S50000x256, .f32⟩
  | 121 => ⟨S50000x256, .f32⟩
  | 122 => ⟨S_, .i32⟩
  | 123 => ⟨S200000, .i32⟩
  | 124 => ⟨S200000, .i1⟩
  | 125 => ⟨S_, .i32⟩
  | 126 => ⟨S200000, .i32⟩
  | 127 => ⟨S200000, .i32⟩
  | _ => ⟨S50000x128, .f32⟩

abbrev hbmTy0_1 (i : Nat) : BufTy := match i % 128 with
  | 0 => ⟨S200000, .i32⟩
  | 1 => ⟨S200000x1, .i32⟩
  | 2 => ⟨S200000x256, .f32⟩
  | 3 => ⟨S_, .i32⟩
  | 4 => ⟨S200000, .i32⟩
  | 5 => ⟨S200000, .i1⟩
  | 6 => ⟨S_, .i32⟩
  | 7 => ⟨S200000, .i32⟩
  | 8 => ⟨S200000, .i32⟩
  | 9 => ⟨S200000, .i32⟩
  | 10 => ⟨S200000x1, .i32⟩
  | 11 => ⟨S200000x256, .f32⟩
  | 12 => ⟨S200000x512, .f32⟩
  | 13 => ⟨S200000x256, .f32⟩
  | 14 => ⟨S1x256, .f32⟩
  | 15 => ⟨S200000x256, .f32⟩
  | 16 => ⟨S200000x256, .f32⟩
  | 17 => ⟨S_, .f32⟩
  | 18 => ⟨S200000x256, .f32⟩
  | 19 => ⟨S200000x256, .f32⟩
  | 20 => ⟨S200000x128, .f32⟩
  | 21 => ⟨S1x128, .f32⟩
  | 22 => ⟨S200000x128, .f32⟩
  | 23 => ⟨S200000x128, .f32⟩
  | 24 => ⟨S_, .f32⟩
  | 25 => ⟨S200000x128, .f32⟩
  | 26 => ⟨S200000x128, .f32⟩
  | 27 => ⟨S200000x18, .f32⟩
  | 28 => ⟨S1x18, .f32⟩
  | 29 => ⟨S200000x18, .f32⟩
  | 30 => ⟨S200000x18, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call0_cst : Ref sig .tc := ⟨.hbm, 72, rfl⟩
abbrev main_call0_v0 : Ref sig .tc := ⟨.hbm, 73, rfl⟩
abbrev main_v48 : Ref sig .tc := ⟨.hbm, 74, rfl⟩
abbrev main_v49 : Ref sig .tc := ⟨.hbm, 75, rfl⟩
abbrev main_c_8 : Ref sig .tc := ⟨.hbm, 76, rfl⟩
abbrev main_v50 : Ref sig .tc := ⟨.hbm, 77, rfl⟩
abbrev main_v51 : Ref sig .tc := ⟨.hbm, 78, rfl⟩
abbrev main_c_9 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_10 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_call1_cst : Ref sig .tc := ⟨.hbm, 97, rfl⟩
abbrev main_call1_v0 : Ref sig .tc := ⟨.hbm, 98, rfl⟩
abbrev main_v68 : Ref sig .tc := ⟨.hbm, 99, rfl⟩
abbrev main_v69 : Ref sig .tc := ⟨.hbm, 100, rfl⟩
abbrev main_c_11 : Ref sig .tc := ⟨.hbm, 101, rfl⟩
abbrev main_v70 : Ref sig .tc := ⟨.hbm, 102, rfl⟩
abbrev main_v71 : Ref sig .tc := ⟨.hbm, 103, rfl⟩
abbrev main_c_12 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_13 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_c_14 : Ref sig .tc := ⟨.hbm, 122, rfl⟩
abbrev main_v88 : Ref sig .tc := ⟨.hbm, 123, rfl⟩
abbrev main_v89 : Ref sig .tc := ⟨.hbm, 124, rfl⟩
abbrev main_c_15 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_c_16 : Ref sig .tc := ⟨.hbm, 131, rfl⟩
abbrev main_v95 : Ref sig .tc := ⟨.hbm, 132, rfl⟩
abbrev main_v96 : Ref sig .tc := ⟨.hbm, 133, rfl⟩
abbrev main_c_17 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_call2_cst : Ref sig .tc := ⟨.hbm, 145, rfl⟩
abbrev main_call2_v0 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_call3_cst : Ref sig .tc := ⟨.hbm, 152, rfl⟩
abbrev main_call3_v0 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩

abbrev nD : Nat := 1
abbrev τ : Topo := Topo.v7x

variable {F : FTy → Type} [FloatOps F]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S_S50000 : S_.BroadcastsInDim S50000 (![] : Fin 0 → Fin S50000.rank)
  bcast_S200000_S200000x1_0 : S200000.BroadcastsInDim S200000x1 (![0] : Fin 1 → Fin S200000x1.rank)
  bcast_S50000_S50000x1_0 : S50000.BroadcastsInDim S50000x1 (![0] : Fin 1 → Fin S50000x1.rank)
  bcast_S200000x1_S200000x256_0_1 : S200000x1.BroadcastsInDim S200000x256 (![0, 1] : Fin 2 → Fin S200000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  concatenates_S200000x256_S200000x256_S200000x512_d1 : Shape.Concatenates [S200000x256, S200000x256] S200000x512 1
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S18_S1x18_1 : S18.BroadcastsInDim S1x18 (![1] : Fin 1 → Fin S1x18.rank)
  bcast_S1x18_S200000x18_0_1 : S1x18.BroadcastsInDim S200000x18 (![0, 1] : Fin 2 → Fin S200000x18.rank)
  scatter_S50000_S200000x1_S200000_n_0_0_1_wf : ScatterDims.WF S50000 S200000x1 S200000 [] [0] [0] 1
  gather_S50000_S200000x1_S200000_n_0_n_n_0_1_1_wf : GatherDims.WF S50000 S200000x1 S200000 [] [0] [] [0] [] 1 ![1]
  dot_S50000x128_S128x256_S50000x256_1_0_0_1_n_n_wf : DotDims.WF S50000x128 S128x256 S50000x256 [1] [0] [0] [1] [] []
  gather_S50000x256_S200000x1_S200000x256_1_0_n_n_0_1_1256_wf : GatherDims.WF S50000x256 S200000x1 S200000x256 [1] [0] [] [0] [] 1 ![1, 256]
  scatter_S50000x256_S200000x1_S200000x256_1_0_0_1_wf : ScatterDims.WF S50000x256 S200000x1 S200000x256 [1] [0] [0] 1
  dot_S50000x256_S256x256_S50000x256_1_0_0_1_n_n_wf : DotDims.WF S50000x256 S256x256 S50000x256 [1] [0] [0] [1] [] []
  dot_S200000x512_S512x256_S200000x256_1_0_0_1_n_n_wf : DotDims.WF S200000x512 S512x256 S200000x256 [1] [0] [0] [1] [] []
  dot_S200000x256_S256x128_S200000x128_1_0_0_1_n_n_wf : DotDims.WF S200000x256 S256x128 S200000x128 [1] [0] [0] [1] [] []
  dot_S200000x128_S128x18_S200000x18_1_0_0_1_n_n_wf : DotDims.WF S200000x128 S128x18 S200000x18 [1] [0] [0] [1] [] []

variable [Facts₀]

def scatter_S50000_S200000x1_S200000_n_0_0_1 : ScatterDims S50000 S200000x1 S200000 where
  updateWindowDims := []
  insertedWindowDims := [0]
  scatterDimsToOperandDims := [0]
  indexVectorDim := 1
  wf := scatter_S50000_S200000x1_S200000_n_0_0_1_wf
def gather_S50000_S200000x1_S200000_n_0_n_n_0_1_1 : GatherDims S50000 S200000x1 S200000 where
  offsetDims := []
  collapsedSliceDims := [0]
  operandBatchingDims := []
  startIndicesBatchingDims := []
  startIndexMap := [0]
  indexVectorDim := 1
  sliceSizes := ![1]
  wf := gather_S50000_S200000x1_S200000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S200000x1_S200000x256_1_0_n_n_0_1_1256 : GatherDims S50000x256 S200000x1 S200000x256 where
  offsetDims := [1]
  collapsedSliceDims := [0]
  operandBatchingDims := []
  startIndicesBatchingDims := []
  startIndexMap := [0]
  indexVectorDim := 1
  sliceSizes := ![1, 256]
  wf := gather_S50000x256_S200000x1_S200000x256_1_0_n_n_0_1_1256_wf
def scatter_S50000x256_S200000x1_S200000x256_1_0_0_1 : ScatterDims S50000x256 S200000x1 S200000x256 where
  updateWindowDims := [1]
  insertedWindowDims := [0]
  scatterDimsToOperandDims := [0]
  indexVectorDim := 1
  wf := scatter_S50000x256_S200000x1_S200000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S200000x512_S512x256_S200000x256_1_0_0_1_n_n : DotDims S200000x512 S512x256 S200000x256 where
  lhsContracting := [1]
  rhsContracting := [0]
  lhsNonContracting := [0]
  rhsNonContracting := [1]
  lhsBatch := []
  rhsBatch := []
  wf := dot_S200000x512_S512x256_S200000x256_1_0_0_1_n_n_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def dot_S200000x128_S128x18_S200000x18_1_0_0_1_n_n : DotDims S200000x128 S128x18 S200000x18 where
  lhsContracting := [1]
  rhsContracting := [0]
  lhsNonContracting := [0]
  rhsNonContracting := [1]
  lhsBatch := []
  rhsBatch := []
  wf := dot_S200000x128_S128x18_S200000x18_1_0_0_1_n_n_wf

class Facts : Prop extends Facts₀ where

variable [Facts]
-- ==== Proof.LibColumnCast.lean ====
/-
  Two small general facts.

  A vector of `a` entries reshaped into a column `[a, 1]` reads, at `(i, u)`, the vector at `i`: both row-major
  positions are `i`. And a sum over `m + n` positions is the sum over the first `m` plus the sum over the last `n`, in
  any commutative monoid; it is stated over an index type `Fin N` with `N = m + n` given as an equation, so that it
  applies to a literal extent.
-/
import Idealize.ShloMosaic.Lib.Pipeline.Value
import Idealize.ShloMosaic.Lib.ValueIdx
import Idealize.ShloMosaic.Lib.ValueLayout

noncomputable section

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A sum over `N = m + n` positions splits into the first `m` and the last `n`. -/
theorem sum_fin_split {M : Type*} [AddCommMonoid M] {N : ℕ} (m n : ℕ) (hN : N = m + n) (g : Fin N → M) :
    ∑ k : Fin N, g k
      = ∑ k : Fin m, g ⟨k.val, by have := k.isLt; omega⟩ + ∑ k : Fin n, g ⟨m + k.val, by have := k.isLt; omega⟩ := by
  subst hN
  rw [Fin.sum_univ_add]
  rfl

end Idealize.ShloMosaic.ValueIdx

end
-- ==== Proof.EdgeClassifier.lean ====
/-
  The edge classifier as mathematics, with no program in sight.

  One edge carries two rows of 256 extended reals, `u` (its source node's embedding) and `v` (its target node's).
  The classifier is three affine layers with `max(·, z)` between them, `z` the zero of the floats:

    h0 l = max ((Σ_p u p · A p l + Σ_p v p · B p l) + b0 l) z          l < 256
    h1 k = max ((Σ_l h0 l · W1 l k) + b1 k) z                            k < 128
    out j = (Σ_k h1 k · W2 k j) + b2 j                                   j < 18

  That is `edgeLogit`: the first layer keeps the two rows apart and multiplies each by its own 256 × 256 matrix.
  `edgeLogitCat` is the same network with the first layer written the other way: ONE row `w` of 512 entries against
  ONE 512 × 256 matrix `W0`. When `w` is `u` followed by `v` and `W0` is `A` stacked on `B`, the two first layers are
  the same number, because a sum over 512 positions is the sum over the first 256 plus the sum over the last 256
  (`edgeLogitCat_eq`). Addition of extended reals is commutative and associative, which is all the splitting of a
  finite sum needs: nothing here asks the entries to be finite.
-/
import Idealize.ShloMosaic.PureOps.Ideal
import proofs.«148113_j24017457119604_2_alg».proof.Proof.LibColumnCast

noncomputable section

namespace Cert.EdgeClassifier

open Idealize.ShloMosaic

/-- One edge's 18 logits from its two endpoint rows, the first layer as two 256-term sums. -/
def edgeLogit (z : EReal) (u v : Fin 256 → EReal) (A B : Fin 256 → Fin 256 → EReal) (b0 : Fin 256 → EReal)
    (W1 : Fin 256 → Fin 128 → EReal) (b1 : Fin 128 → EReal) (W2 : Fin 128 → Fin 18 → EReal) (b2 : Fin 18 → EReal)
    (j : Fin 18) : EReal :=
  (∑ k : Fin 128, max ((∑ l : Fin 256,
      max (((∑ p : Fin 256, u p * A p l) + (∑ p : Fin 256, v p * B p l)) + b0 l) z * W1 l k) + b1 k) z * W2 k j) + b2 j

/-- The same network, the first layer as one 512-term sum over the joined row. -/
def edgeLogitCat (z : EReal) (w : Fin 512 → EReal) (W0 : Fin 512 → Fin 256 → EReal) (b0 : Fin 256 → EReal)
    (W1 : Fin 256 → Fin 128 → EReal) (b1 : Fin 128 → EReal) (W2 : Fin 128 → Fin 18 → EReal) (b2 : Fin 18 → EReal)
    (j : Fin 18) : EReal :=
  (∑ k : Fin 128, max ((∑ l : Fin 256,
      max ((∑ q : Fin 512, w q * W0 q l) + b0 l) z * W1 l k) + b1 k) z * W2 k j) + b2 j

/-- The joined row against the stacked matrix is the two rows against the two halves: the 512-term sum splits at 256. -/
theorem edgeLogitCat_eq (z : EReal) (w : Fin 512 → EReal) (W0 : Fin 512 → Fin 256 → EReal) (b0 : Fin 256 → EReal)
    (W1 : Fin 256 → Fin 128 → EReal) (b1 : Fin 128 → EReal) (W2 : Fin 128 → Fin 18 → EReal) (b2 : Fin 18 → EReal)
    (j : Fin 18) :
    edgeLogitCat z w W0 b0 W1 b1 W2 b2 j
      = edgeLogit z (fun p => w ⟨p.val, by have := p.isLt; omega⟩) (fun p => w ⟨256 + p.val, by have := p.isLt; omega⟩)
          (fun p l => W0 ⟨p.val, by have := p.isLt; omega⟩ l) (fun p l => W0 ⟨256 + p.val, by have := p.isLt; omega⟩ l)
          b0 W1 b1 W2 b2 j := by
  unfold edgeLogitCat edgeLogit
  have split : ∀ l : Fin 256, (∑ q : Fin 512, w q * W0 q l)
      = (∑ p : Fin 256, w ⟨p.val, by have := p.isLt; omega⟩ * W0 ⟨p.val, by have := p.isLt; omega⟩ l)
        + (∑ p : Fin 256, w ⟨256 + p.val, by have := p.isLt; omega⟩ * W0 ⟨256 + p.val, by have := p.isLt; omega⟩ l) :=
    fun l => ValueIdx.sum_fin_split 256 256 rfl (fun q => w q * W0 q l)
  simp only [split]

end Cert.EdgeClassifier

end
-- ==== Proof.LibPlainDot.lean ====
/-
  Two general facts about finite sums, used to read a matrix product and a blocked sum index by index.

  A plain product of an `[M, K]` array with a `[K, N]` array — one contracted axis, no batch axis — read at the
  output position `(r, c)` is the sum over `k : Fin K` of the left operand at `(r, k)` times the right operand at
  `(k, c)`: the contraction index of such a product is its one coordinate. The four coordinate facts of the
  dimension numbers are hypotheses, so the statement applies to any record of this form.

  A sum over `N = A * B` positions is the sum over `A` consecutive blocks of the sums over the `B` positions of
  each block, in any commutative monoid: position `e` is `t * B + r` for exactly one block `t` and offset `r`.
-/
import Idealize.ShloMosaic.Lib.ValueIdx
import Idealize.ShloMosaic.PureOps.Ideal.Laws

noncomputable section

namespace Idealize.ShloMosaic.ValueIdx

/-- The sum over the one-axis contraction index of a plain `[M, K] × [K, N]` product, at output position `(r, c)`,
    is the sum over `k : Fin K` of `lhs (r, k) * rhs (k, c)`. -/
theorem plain_dot_sum {M K N : ℕ} (d : DotDims ⟨2, ![M, K]⟩ ⟨2, ![K, N]⟩ ⟨2, ![M, N]⟩)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : (⟨2, ![M, K]⟩ : Shape).Idx → EReal) (rhs : (⟨2, ![K, N]⟩ : Shape).Idx → EReal) (r : Fin M) (c : Fin N) :
    ∑ q : d.contr.Idx, lhs (d.lhsIdx (ix2 r c) q) * rhs (d.rhsIdx (ix2 r c) q)
      = ∑ k : Fin K, lhs (ix2 r k) * rhs (ix2 k c) := by
  rw [← Equiv.sum_comp (contrEquiv1 d K hr hs).symm]
  refine Finset.sum_congr rfl fun k _ => ?_
  have hk := contrEquiv1_symm_val d K hr hs k
  have el : d.lhsIdx (ix2 r c) ((contrEquiv1 d K hr hs).symm k) = ix2 r k := funext fun a => Fin.ext (by
    match a with
    | ⟨0, _⟩ => exact hl0 _ _
    | ⟨1, _⟩ => exact (hl1 _ _).trans hk)
  have er : d.rhsIdx (ix2 r c) ((contrEquiv1 d K hr hs).symm k) = ix2 k c := funext fun a => Fin.ext (by
    match a with
    | ⟨0, _⟩ => exact (hr0 _ _).trans hk
    | ⟨1, _⟩ => exact hr1 _ _)
  rw [el, er]

/-- A sum over `N = A * B` positions is the sum over the `A` blocks of the sums over each block's `B` positions. -/
theorem sum_fin_blocks {M : Type*} [AddCommMonoid M] {N : ℕ} (A B : ℕ) (hN : N = A * B) (g : Fin N → M) :
    ∑ e : Fin N, g e
      = ∑ t : Fin A, ∑ r : Fin B, g ⟨t.val * B + r.val, by
          have h1 : t.val * B + r.val < t.val * B + B := Nat.add_lt_add_left r.isLt _
          have h3 : (t.val + 1) * B ≤ A * B := Nat.mul_le_mul_right B t.isLt
          rw [Nat.add_mul, Nat.one_mul] at h3
          rw [hN]; exact Nat.lt_of_lt_of_le h1 h3⟩ := by
  subst hN
  rw [← Equiv.sum_comp finProdFinEquiv g, Fintype.sum_prod_type]
  refine Finset.sum_congr rfl fun t _ => Finset.sum_congr rfl fun r _ => ?_
  refine congrArg g (Fin.ext ?_)
  show r.val + B * t.val = t.val * B + r.val
  rw [Nat.mul_comm, Nat.add_comm]

end Idealize.ShloMosaic.ValueIdx

end
-- ==== Proof.KernelRow.lean ====
/-
  What the kernel body computes, read one entry at a time.

  The body loads a tile of 4000 source rows `P0` and 4000 target rows `P1` (256 entries each), the two 256 × 256
  halves `P2`, `P3` of the first layer's matrix, the later layers' matrices `P5`, `P7` and the three bias rows
  `P4`, `P6`, `P8` (each a 1 × n array). Every product is a plain rows-by-columns product accumulated into zero, so
  its entry `(r, c)` is the sum over the shared axis of `lhs (r, k) · rhs (k, c)`; a change of float format is the
  identity on extended reals; a bias row broadcast over the tile reads its one row; `max` against the zero splat
  is `max (·) z`. Put together, entry `(r, j)` of the stored tile is `edgeLogit` of row `r` of `P0` and row `r` of
  `P1` — it depends on no other row of the tile.
-/
import proofs.«148113_j24017457119604_2_alg».proof.Proof.Gen.KernelIdeal.Value
import proofs.«148113_j24017457119604_2_alg».proof.Proof.EdgeClassifier
import proofs.«148113_j24017457119604_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Rows

open Cert.KernelIdeal Cert.KernelIdeal.Gen Idealize.ShloMosaic Idealize.ShloMosaic.ValueIdx Cert.EdgeClassifier

/-- The zero the body compares against and accumulates into, as the float word it is printed with. -/
abbrev z : EReal := Ideal.ofBits .f32 0x00000000#32

/-! ## The three products, entry by entry -/

/-- A tile of 4000 rows times a 256 × 256 matrix, into zero: entry `(r, l)` sums over the 256 shared positions. -/
theorem prod256x256_apply (X : FVec Ideal S4000x256 .bf16) (W : FVec Ideal S256x256 .bf16) (r : Fin 4000) (l : Fin 256) :
    matmul dot_S4000x256_S256x256_S4000x256_1_0_0_1_n_n none X W (constant (F := Ideal) S4000x256 .f32 0x00000000#32) (ix2 r l)
      = ∑ p : Fin 256, X (ix2 r p) * W (ix2 p l) := by
  refine (Ideal.matmul_constant_zero_apply dot_S4000x256_S256x256_S4000x256_1_0_0_1_n_n none X W (ix2 r l)).trans ?_
  exact plain_dot_sum dot_S4000x256_S256x256_S4000x256_1_0_0_1_n_n rfl rfl
    (fun j q => by
      unfold DotDims.lhsIdx
      rw [dif_neg (show ¬(0 : Fin S4000x256.rank) ∈ dot_S4000x256_S256x256_S4000x256_1_0_0_1_n_n.lhsBatch by decide),
        dif_pos (show (0 : Fin S4000x256.rank) ∈ dot_S4000x256_S256x256_S4000x256_1_0_0_1_n_n.lhsNonContracting by decide)]
      rfl)
    (fun j q => dot_S4000x256_S256x256_S4000x256_1_0_0_1_n_n.lhsIdx_val_of_single rfl j q)
    (fun j q => dot_S4000x256_S256x256_S4000x256_1_0_0_1_n_n.rhsIdx_val_of_single rfl j q)
    (fun j q => by
      unfold DotDims.rhsIdx
      rw [dif_neg (show ¬(1 : Fin S256x256.rank) ∈ dot_S4000x256_S256x256_S4000x256_1_0_0_1_n_n.rhsBatch by decide),
        dif_pos (show (1 : Fin S256x256.rank) ∈ dot_S4000x256_S256x256_S4000x256_1_0_0_1_n_n.rhsNonContracting by decide)]
      rfl)
    X W r l

/-- A tile of 4000 rows of 256 times a 256 × 128 matrix, into zero. -/
theorem prod256x128_apply (X : FVec Ideal S4000x256 .bf16) (W : FVec Ideal S256x128 .bf16) (r : Fin 4000) (k : Fin 128) :
    matmul dot_S4000x256_S256x128_S4000x128_1_0_0_1_n_n none X W (constant (F := Ideal) S4000x128 .f32 0x00000000#32) (ix2 r k)
      = ∑ l : Fin 256, X (ix2 r l) * W (ix2 l k) := by
  refine (Ideal.matmul_constant_zero_apply dot_S4000x256_S256x128_S4000x128_1_0_0_1_n_n none X W (ix2 r k)).trans ?_
  exact plain_dot_sum dot_S4000x256_S256x128_S4000x128_1_0_0_1_n_n rfl rfl
    (fun j q => by
      unfold DotDims.lhsIdx
      rw [dif_neg (show ¬(0 : Fin S4000x256.rank) ∈ dot_S4000x256_S256x128_S4000x128_1_0_0_1_n_n.lhsBatch by decide),
        dif_pos (show (0 : Fin S4000x256.rank) ∈ dot_S4000x256_S256x128_S4000x128_1_0_0_1_n_n.lhsNonContracting by decide)]
      rfl)
    (fun j q => dot_S4000x256_S256x128_S4000x128_1_0_0_1_n_n.lhsIdx_val_of_single rfl j q)
    (fun j q => dot_S4000x256_S256x128_S4000x128_1_0_0_1_n_n.rhsIdx_val_of_single rfl j q)
    (fun j q => by
      unfold DotDims.rhsIdx
      rw [dif_neg (show ¬(1 : Fin S256x128.rank) ∈ dot_S4000x256_S256x128_S4000x128_1_0_0_1_n_n.rhsBatch by decide),
        dif_pos (show (1 : Fin S256x128.rank) ∈ dot_S4000x256_S256x128_S4000x128_1_0_0_1_n_n.rhsNonContracting by decide)]
      rfl)
    X W r k

/-- A tile of 4000 rows of 128 times a 128 × 18 matrix, into zero. -/
theorem prod128x18_apply (X : FVec Ideal S4000x128 .bf16) (W : FVec Ideal S128x18 .bf16) (r : Fin 4000) (j : Fin 18) :
    matmul dot_S4000x128_S128x18_S4000x18_1_0_0_1_n_n none X W (constant (F := Ideal) S4000x18 .f32 0x00000000#32) (ix2 r j)
      = ∑ k : Fin 128, X (ix2 r k) * W (ix2 k j) := by
  refine (Ideal.matmul_constant_zero_apply dot_S4000x128_S128x18_S4000x18_1_0_0_1_n_n none X W (ix2 r j)).trans ?_
  exact plain_dot_sum dot_S4000x128_S128x18_S4000x18_1_0_0_1_n_n rfl rfl
    (fun i q => by
      unfold DotDims.lhsIdx
      rw [dif_neg (show ¬(0 : Fin S4000x128.rank) ∈ dot_S4000x128_S128x18_S4000x18_1_0_0_1_n_n.lhsBatch by decide),
        dif_pos (show (0 : Fin S4000x128.rank) ∈ dot_S4000x128_S128x18_S4000x18_1_0_0_1_n_n.lhsNonContracting by decide)]
      rfl)
    (fun i q => dot_S4000x128_S128x18_S4000x18_1_0_0_1_n_n.lhsIdx_val_of_single rfl i q)
    (fun i q => dot_S4000x128_S128x18_S4000x18_1_0_0_1_n_n.rhsIdx_val_of_single rfl i q)
    (fun i q => by
      unfold DotDims.rhsIdx
      rw [dif_neg (show ¬(1 : Fin S128x18.rank) ∈ dot_S4000x128_S128x18_S4000x18_1_0_0_1_n_n.rhsBatch by decide),
        dif_pos (show (1 : Fin S128x18.rank) ∈ dot_S4000x128_S128x18_S4000x18_1_0_0_1_n_n.rhsNonContracting by decide)]
      rfl)
    X W r j

/-! ## The body's value before the last bias, and the stored tile -/

/-- Entry `(r, j)` of the third product: the network of `edgeLogit` without its last bias. -/
theorem pay2_apply (P0 P1 : Vec Ideal S4000x256 .f32) (P2 P3 : Vec Ideal S256x256 .f32) (P4 : Vec Ideal S1x256 .f32)
    (P5 : Vec Ideal S256x128 .f32) (P6 : Vec Ideal S1x128 .f32) (P7 : Vec Ideal S128x18 .f32) (r : Fin 4000) (j : Fin 18) :
    k0_pay2 (F := Ideal) P0 P1 P2 P3 P4 P5 P6 P7 (ix2 r j)
      = ∑ k : Fin 128, max ((∑ l : Fin 256,
          max (((∑ p : Fin 256, P0 (ix2 r p) * P2 (ix2 p l)) + (∑ p : Fin 256, P1 (ix2 r p) * P3 (ix2 p l)))
            + P4 (ix2 (0 : Fin 1) l)) z * P5 (ix2 l k)) + P6 (ix2 (0 : Fin 1) k)) z * P7 (ix2 k j) := by
  unfold k0_pay2
  simp only [shapeCast_self]
  refine (prod128x18_apply _ _ r j).trans (Finset.sum_congr rfl fun k _ => ?_)
  simp only [truncf_apply, maximumf_apply, addf_apply, broadcast_apply]
  rw [broadcastTo_1b_ab_apply P6 _ r k, prod256x128_apply _ _ r k]
  refine congrArg (fun s => max (s + P6 (ix2 (0 : Fin 1) k)) _ * P7 (ix2 k j)) (Finset.sum_congr rfl fun l _ => ?_)
  simp only [truncf_apply, maximumf_apply, addf_apply, broadcast_apply]
  rw [broadcastTo_1b_ab_apply P4 _ r l, prod256x256_apply _ _ r l, prod256x256_apply _ _ r l]
  rfl

/-- THE STORED TILE, entry `(r, j)`: `edgeLogit` of row `r` of the source tile and row `r` of the target tile. -/
theorem tile_apply (P0 P1 : Vec Ideal S4000x256 .f32) (P2 P3 : Vec Ideal S256x256 .f32) (P4 : Vec Ideal S1x256 .f32)
    (P5 : Vec Ideal S256x128 .f32) (P6 : Vec Ideal S1x128 .f32) (P7 : Vec Ideal S128x18 .f32) (P8 : Vec Ideal S1x18 .f32)
    (r : Fin 4000) (j : Fin 18) :
    Cert.KernelIdeal.Value.E9 (F := Ideal) P0 P1 P2 P3 P4 P5 P6 P7 P8 (ix2 r j)
      = edgeLogit z (fun p => P0 (ix2 r p)) (fun p => P1 (ix2 r p)) (fun p l => P2 (ix2 p l)) (fun p l => P3 (ix2 p l))
          (fun l => P4 (ix2 (0 : Fin 1) l)) (fun l k => P5 (ix2 l k)) (fun k => P6 (ix2 (0 : Fin 1) k))
          (fun k j => P7 (ix2 k j)) (fun j => P8 (ix2 (0 : Fin 1) j)) j := by
  show FloatOps.addf (k0_pay2 (F := Ideal) P0 P1 P2 P3 P4 P5 P6 P7 (Cert.KernelIdeal.Value.ix9_0 (ix2 r j)))
      (P8 (Cert.KernelIdeal.Value.ix9_1 (ix2 r j))) = _
  have e0 : Cert.KernelIdeal.Value.ix9_0 (ix2 r j) = ix2 r j := funext fun a => Fin.ext (by
    match a with | ⟨0, _⟩ => rfl | ⟨1, _⟩ => rfl)
  have e1 : Cert.KernelIdeal.Value.ix9_1 (ix2 r j) = ix2 (0 : Fin 1) j := funext fun a => Fin.ext (by
    match a with | ⟨0, _⟩ => rfl | ⟨1, _⟩ => rfl)
  rw [e0, e1, pay2_apply]
  rfl

end Cert.KernelIdeal.Rows

end
-- ==== Proof.KernelArray.lean ====
/-
  From tiles to the whole array of logits.

  Grid point `t` (of 50) works on edges `4000 t … 4000 t + 3999`: its source tile is rows `4000 t + r` of the gathered
  source array, its target tile the same rows of the gathered target array, and the seven small operands (the two halves
  of the first-layer matrix, the later matrices, the three bias rows) are the same whole arrays at every point. By
  `Rows.tile_apply` the tile it writes back holds, at `(r, j)`, `edgeLogit` of those two rows — which is entry
  `(4000 t + r, j)` of ONE function of the whole arrays, `logits`. The 50 tiles cover every row (row `e` lies in tile
  `e / 4000`), so after the run the result array is `logits` of the arrays the region was entered with.
-/
import proofs.«148113_j24017457119604_2_alg».proof.Proof.KernelRow

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.EdgeClassifier Cert.KernelIdeal.Rows
open Idealize.ShloMosaic.Pipeline (Dat)

/-! ## The function of the whole arrays -/

/-- Edge `e`'s logit `j`, from the two gathered arrays' rows `e` and the seven small operands. -/
def logitAt (ES ED : S200000x256.Idx → EReal) (WA WB : S256x256.Idx → EReal) (B0 : S1x256.Idx → EReal)
    (W1 : S256x128.Idx → EReal) (B1 : S1x128.Idx → EReal) (W2 : S128x18.Idx → EReal) (B2 : S1x18.Idx → EReal)
    (e : Fin 200000) (j : Fin 18) : EReal :=
  edgeLogit z (fun p => ES (ix2 e p)) (fun p => ED (ix2 e p)) (fun p l => WA (ix2 p l)) (fun p l => WB (ix2 p l))
    (fun l => B0 (ix2 (0 : Fin 1) l)) (fun l k => W1 (ix2 l k)) (fun k => B1 (ix2 (0 : Fin 1) k))
    (fun k j => W2 (ix2 k j)) (fun j => B2 (ix2 (0 : Fin 1) j)) j

/-- The whole 200000 × 18 array of logits. -/
def logits (ES ED : S200000x256.Idx → EReal) (WA WB : S256x256.Idx → EReal) (B0 : S1x256.Idx → EReal)
    (W1 : S256x128.Idx → EReal) (B1 : S1x128.Idx → EReal) (W2 : S128x18.Idx → EReal) (B2 : S1x18.Idx → EReal) :
    S200000x18.Idx → EReal :=
  fun i => logitAt ES ED WA WB B0 W1 B1 W2 B2 (i 0) (i 1)

variable (m : (ℓ : Loc nD τ sig) → Buf (Elt Ideal) ℓ) (ρ : Dev nD → PrngReg)

/-! ## Where each window's tile sits -/

theorem zero_offsets : (![0, 0] : Fin 2 → Nat) = fun _ => 0 := funext fun a => by fin_cases a <;> rfl

/-- The printed index maps over the 50 points: the two row-tiled inputs and the output are at row-tile `t`, column-tile
    `0`; the seven resident operands are always at tile `(0, 0)`. -/
theorem tile_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

theorem point_lt (t : Fin cfg0.N) : t.val < 50 := lt_of_lt_of_eq t.isLt N_0

/-- The edge that row `r` of point `t`'s tiles belongs to. -/
def edgeOf (t : Fin cfg0.N) (r : Fin 4000) : Fin 200000 :=
  ⟨t.val * 4000 + r.val, by have := point_lt t; have := r.isLt; omega⟩

/-- Row `r` of the source tile at point `t` is row `4000 t + r` of the gathered source array. -/
theorem source_tile (c : Dev nD) (t : Fin cfg0.N) (r : Fin 4000) (p : Fin 256) :
    iblk m c 0 t (ix2 r p) = V m c main_v94 (ix2 (edgeOf t r) p) := by
  obtain ⟨e0, e1, -⟩ := tile_index t
  show V m c main_v94 (((cfg0.win 0).blk t).view.emb (ix2 r p)) = V m c main_v94 (ix2 (edgeOf t r) p)
  refine congrArg (V m c main_v94) (funext fun a => Fin.ext ?_)
  match a with
  | ⟨0, _⟩ => show win0_0.index t (0 : Fin 2) * 4000 + 1 * r.val = t.val * 4000 + r.val; omega
  | ⟨1, _⟩ => show win0_0.index t (1 : Fin 2) * 256 + 1 * p.val = p.val; omega

/-- Row `r` of the target tile at point `t` is row `4000 t + r` of the gathered target array. -/
theorem target_tile (c : Dev nD) (t : Fin cfg0.N) (r : Fin 4000) (p : Fin 256) :
    iblk m c 1 t (ix2 r p) = V m c main_v101 (ix2 (edgeOf t r) p) := by
  obtain ⟨-, -, e0, e1, -⟩ := tile_index t
  show V m c main_v101 (((cfg0.win 1).blk t).view.emb (ix2 r p)) = V m c main_v101 (ix2 (edgeOf t r) p)
  refine congrArg (V m c main_v101) (funext fun a => Fin.ext ?_)
  match a with
  | ⟨0, _⟩ => show win0_1.index t (0 : Fin 2) * 4000 + 1 * r.val = t.val * 4000 + r.val; omega
  | ⟨1, _⟩ => show win0_1.index t (1 : Fin 2) * 256 + 1 * p.val = p.val; omega

/-- The resident operands' tiles are their whole arrays. -/
theorem upper_half_tile (c : Dev nD) (t : Fin cfg0.N) (p l : Fin 256) :
    iblk m c 2 t (ix2 p l) = V m c main_v102 (ix2 p l) := by
  obtain ⟨-, -, -, -, e0, e1, -⟩ := tile_index t
  show V m c main_v102 (((cfg0.win 2).blk t).view.emb (ix2 p l)) = V m c main_v102 (ix2 p l)
  refine congrArg (V m c main_v102) (funext fun a => Fin.ext ?_)
  match a with
  | ⟨0, _⟩ => show win0_2.index t (0 : Fin 2) * 256 + 1 * p.val = p.val; omega
  | ⟨1, _⟩ => show win0_2.index t (1 : Fin 2) * 256 + 1 * l.val = l.val; omega

theorem lower_half_tile (c : Dev nD) (t : Fin cfg0.N) (p l : Fin 256) :
    iblk m c 3 t (ix2 p l) = V m c main_v103 (ix2 p l) := by
  obtain ⟨-, -, -, -, -, -, e0, e1, -⟩ := tile_index t
  show V m c main_v103 (((cfg0.win 3).blk t).view.emb (ix2 p l)) = V m c main_v103 (ix2 p l)
  refine congrArg (V m c main_v103) (funext fun a => Fin.ext ?_)
  match a with
  | ⟨0, _⟩ => show win0_3.index t (0 : Fin 2) * 256 + 1 * p.val = p.val; omega
  | ⟨1, _⟩ => show win0_3.index t (1 : Fin 2) * 256 + 1 * l.val = l.val; omega

theorem bias0_tile (c : Dev nD) (t : Fin cfg0.N) (l : Fin 256) :
    iblk m c 4 t (ix2 (0 : Fin 1) l) = V m c main_v104 (ix2 (0 : Fin 1) l) := by
  obtain ⟨-, -, -, -, -, -, -, -, e0, e1, -⟩ := tile_index t
  show V m c main_v104 (((cfg0.win 4).blk t).view.emb (ix2 (0 : Fin 1) l)) = V m c main_v104 (ix2 (0 : Fin 1) l)
  refine congrArg (V m c main_v104) (funext fun a => Fin.ext ?_)
  match a with
  | ⟨0, _⟩ => show win0_4.index t (0 : Fin 2) * 1 + 1 * 0 = 0; omega
  | ⟨1, _⟩ => show win0_4.index t (1 : Fin 2) * 256 + 1 * l.val = l.val; omega

theorem matrix1_tile (c : Dev nD) (t : Fin cfg0.N) (l : Fin 256) (k : Fin 128) :
    iblk m c 5 t (ix2 l k) = V m c main_arg10 (ix2 l k) := by
  obtain ⟨-, -, -, -, -, -, -, -, -, -, e0, e1, -⟩ := tile_index t
  show V m c main_arg10 (((cfg0.win 5).blk t).view.emb (ix2 l k)) = V m c main_arg10 (ix2 l k)
  refine congrArg (V m c main_arg10) (funext fun a => Fin.ext ?_)
  match a with
  | ⟨0, _⟩ => show win0_5.index t (0 : Fin 2) * 256 + 1 * l.val = l.val; omega
  | ⟨1, _⟩ => show win0_5.index t (1 : Fin 2) * 128 + 1 * k.val = k.val; omega

theorem bias1_tile (c : Dev nD) (t : Fin cfg0.N) (k : Fin 128) :
    iblk m c 6 t (ix2 (0 : Fin 1) k) = V m c main_v105 (ix2 (0 : Fin 1) k) := by
  obtain ⟨-, -, -, -, -, -, -, -, -, -, -, -, e0, e1, -⟩ := tile_index t
  show V m c main_v105 (((cfg0.win 6).blk t).view.emb (ix2 (0 : Fin 1) k)) = V m c main_v105 (ix2 (0 : Fin 1) k)
  refine congrArg (V m c main_v105) (funext fun a => Fin.ext ?_)
  match a with
  | ⟨0, _⟩ => show win0_6.index t (0 : Fin 2) * 1 + 1 * 0 = 0; omega
  | ⟨1, _⟩ => show win0_6.index t (1 : Fin 2) * 128 + 1 * k.val = k.val; omega

theorem matrix2_tile (c : Dev nD) (t : Fin cfg0.N) (k : Fin 128) (j : Fin 18) :
    iblk m c 7 t (ix2 k j) = V m c main_arg12 (ix2 k j) := by
  obtain ⟨-, -, -, -, -, -, -, -, -, -, -, -, -, -, e0, e1, -⟩ := tile_index t
  show V m c main_arg12 (((cfg0.win 7).blk t).view.emb (ix2 k j)) = V m c main_arg12 (ix2 k j)
  refine congrArg (V m c main_arg12) (funext fun a => Fin.ext ?_)
  match a with
  | ⟨0, _⟩ => show win0_7.index t (0 : Fin 2) * 128 + 1 * k.val = k.val; omega
  | ⟨1, _⟩ => show win0_7.index t (1 : Fin 2) * 18 + 1 * j.val = j.val; omega

theorem bias2_tile (c : Dev nD) (t : Fin cfg0.N) (j : Fin 18) :
    iblk m c 8 t (ix2 (0 : Fin 1) j) = V m c main_v106 (ix2 (0 : Fin 1) j) := by
  obtain ⟨-, -, -, -, -, -, -, -, -, -, -, -, -, -, -, -, e0, e1, -⟩ := tile_index t
  show V m c main_v106 (((cfg0.win 8).blk t).view.emb (ix2 (0 : Fin 1) j)) = V m c main_v106 (ix2 (0 : Fin 1) j)
  refine congrArg (V m c main_v106) (funext fun a => Fin.ext ?_)
  match a with
  | ⟨0, _⟩ => show win0_8.index t (0 : Fin 2) * 1 + 1 * 0 = 0; omega
  | ⟨1, _⟩ => show win0_8.index t (1 : Fin 2) * 18 + 1 * j.val = j.val; omega

/-- Entry `(r, j)` of the output tile at point `t` sits at `(4000 t + r, j)` of the result array. -/
theorem output_tile (t : Fin cfg0.N) (r : Fin 4000) (j : Fin 18) :
    ((cfg0.win 9).blk t).view.emb (ix2 r j) = ix2 (edgeOf t r) j := by
  obtain ⟨-, -, -, -, -, -, -, -, -, -, -, -, -, -, -, -, -, -, e0, e1⟩ := tile_index t
  refine funext fun a => Fin.ext ?_
  match a with
  | ⟨0, _⟩ => show win0_9.index t (0 : Fin 2) * 4000 + 1 * r.val = t.val * 4000 + r.val; omega
  | ⟨1, _⟩ => show win0_9.index t (1 : Fin 2) * 18 + 1 * j.val = j.val; omega

/-! ## What a point writes back, the cover, the array -/

/-- WHAT POINT `t` WRITES BACK is tile `t` of `logits` of the arrays as the region finds them. -/
theorem flushed_logits (c : Dev nD) (t : Fin cfg0.N) :
    (dats m 0 c).flushed 9 t = ((cfg0.win 9).blk t).view.read (Elt Ideal)
      (logits (V m c main_v94) (V m c main_v101) (V m c main_v102) (V m c main_v103) (V m c main_v104)
        (V m c main_arg10) (V m c main_v105) (V m c main_arg12) (V m c main_v106)) := by
  rw [Cert.KernelIdeal.Value.flushed9]
  unfold out0_9
  simp only [View.ld_unit_zero (S := S4000x256) zero_offsets, View.ld_unit_zero (S := S256x256) zero_offsets,
    View.ld_unit_zero (S := S1x256) zero_offsets, View.ld_unit_zero (S := S256x128) zero_offsets,
    View.ld_unit_zero (S := S1x128) zero_offsets, View.ld_unit_zero (S := S128x18) zero_offsets,
    View.ld_unit_zero (S := S1x18) zero_offsets]
  funext y
  obtain ⟨r, j, rfl⟩ : ∃ (r : Fin 4000) (j : Fin 18), y = ix2 r j := ⟨y 0, y 1, eq_ix2 y⟩
  show (View.canon [⟨r0_7, k0_pay1 (k0_pay2 (iblk m c 0 t) (iblk m c 1 t) (iblk m c 2 t) (iblk m c 3 t) (iblk m c 4 t)
      (iblk m c 5 t) (iblk m c 6 t) (iblk m c 7 t)) (iblk m c 8 t)⟩] : Vec Ideal S4000x18 .f32) (ix2 r j)
    = logits (V m c main_v94) (V m c main_v101) (V m c main_v102) (V m c main_v103) (V m c main_v104)
        (V m c main_arg10) (V m c main_v105) (V m c main_arg12) (V m c main_v106) (((cfg0.win 9).blk t).view.emb (ix2 r j))
  rw [output_tile t r j]
  refine (Cert.KernelIdeal.Value.canon9_eq (iblk m c 0 t) (iblk m c 1 t) (iblk m c 2 t) (iblk m c 3 t) (iblk m c 4 t)
    (iblk m c 5 t) (iblk m c 6 t) (iblk m c 7 t) (iblk m c 8 t) (ix2 r j)).trans ?_
  refine (tile_apply (iblk m c 0 t) (iblk m c 1 t) (iblk m c 2 t) (iblk m c 3 t) (iblk m c 4 t)
    (iblk m c 5 t) (iblk m c 6 t) (iblk m c 7 t) (iblk m c 8 t) r j).trans ?_
  show _ = logitAt (V m c main_v94) (V m c main_v101) (V m c main_v102) (V m c main_v103) (V m c main_v104)
        (V m c main_arg10) (V m c main_v105) (V m c main_arg12) (V m c main_v106) (edgeOf t r) j
  unfold logitAt
  simp only [source_tile m c t, target_tile m c t, upper_half_tile m c t, lower_half_tile m c t, bias0_tile m c t,
    matrix1_tile m c t, bias1_tile m c t, matrix2_tile m c t, bias2_tile m c t]

/-- An index of the result array is in point `t`'s tile iff each coordinate is in the tile's range on its axis. -/
theorem mem_tile (t : Fin cfg0.N) (i : S200000x18.Idx) :
    i ∈ ((cfg0.win 9).blk t).view.set ↔ ∀ a : Fin 2, win0_9.index t a * S4000x18.size a ≤ (i a).val
      ∧ (i a).val < win0_9.index t a * S4000x18.size a + S4000x18.size a := by
  show i ∈ ((View.whole main_v107).slice (win0_9.rect t)).set ↔ _
  rw [View.set_slice_whole, Rect.mem_set_unit]
  exact Iff.rfl

/-- Every entry of the result array lies in some point's tile: row `e` in tile `e / 4000`. -/
theorem covered (i : S200000x18.Idx) :
    ∃ t : Fin cfg0.N, (cfg0.win 9).flush t = true ∧ i ∈ ((cfg0.win 9).blk t).view.set := by
  have hi0 : (i 0).val < 200000 := (i 0).isLt
  have hi1 : (i 1).val < 18 := (i 1).isLt
  have hN : cfg0.N = 50 := N_0
  refine ⟨⟨(i 0).val / 4000, by rw [hN]; omega⟩, flush0_9 _, ?_⟩
  rw [mem_tile]
  obtain ⟨-, -, -, -, -, -, -, -, -, -, -, -, -, -, -, -, -, -, e0, e1⟩ :=
    tile_index ⟨(i 0).val / 4000, by rw [hN]; omega⟩
  intro a
  match a with
  | ⟨0, _⟩ =>
    show win0_9.index _ (0 : Fin 2) * 4000 ≤ (i 0).val ∧ (i 0).val < win0_9.index _ (0 : Fin 2) * 4000 + 4000
    rw [e0]; show (i 0).val / 4000 * 4000 ≤ (i 0).val ∧ (i 0).val < (i 0).val / 4000 * 4000 + 4000; omega
  | ⟨1, _⟩ =>
    show win0_9.index _ (1 : Fin 2) * 18 ≤ (i 1).val ∧ (i 1).val < win0_9.index _ (1 : Fin 2) * 18 + 18
    rw [e1]; omega

/-- THE RESULT ARRAY after the run is `logits` of the arrays the region was entered with. -/
theorem final (c : Dev nD) :
    (dats m 0 c).arrAt 9 cfg0.N
      = logits (V m c main_v94) (V m c main_v101) (V m c main_v102) (V m c main_v103) (V m c main_v104)
          (V m c main_arg10) (V m c main_v105) (V m c main_arg12) (V m c main_v106) :=
  (dats m 0 c).arrAt_eq_of_cover 9 _ (fun t _ => flushed_logits m c t) covered

end Cert.KernelIdeal.Whole

end
-- ==== Proof.ReferenceRow.lean ====
/-
  What the reference computes for one edge, read one entry at a time.

  After the node embeddings have been gathered along the edges' sources and along their targets (two arrays of
  200000 rows of 256, carried here as they are: nothing in this file looks inside them), the reference joins each
  edge's two rows into one row of 512, multiplies by the whole 512 × 256 first-layer matrix, adds the bias,
  takes `max` with zero, and goes on through the second and third layers. Entry `(e, j)` of its result is therefore
  `edgeLogitCat` of edge `e`'s joined row; position `q < 256` of a joined row is the source row's entry `q`, position
  `256 + p` is the target row's entry `p`; and so, by the splitting of the 512-term sum, the entry is `edgeLogit` of
  the two rows against the two halves of the matrix.
-/
import proofs.«148113_j24017457119604_2_alg».proof.Proof.Gen.ReferenceIdeal.Read
import proofs.«148113_j24017457119604_2_alg».proof.Proof.EdgeClassifier
import Idealize.ShloMosaic.Lib.ValueIdx
import Idealize.ShloMosaic.Lib.Pipeline.Value
import Idealize.ShloMosaic.PureOps.Ideal.Laws

noncomputable section

namespace Cert.ReferenceIdeal.Rows

open Cert.ReferenceIdeal Cert.ReferenceIdeal.Gen Cert.ReferenceIdeal.Read Idealize.ShloMosaic Idealize.ShloMosaic.ValueIdx
open Cert.EdgeClassifier

/-- The zero the reference's `max` compares against, as the float word it is printed with. -/
abbrev z : EReal := Ideal.ofBits .f32 0x00000000#32

/-! ## A joined row, position by position -/

/-- Position `q < 256` of edge `e`'s joined row is entry `q` of its first row. -/
theorem joined_low (A B : (⟨S200000x256, .f32⟩ : BufTy).Contents (Elt Ideal)) (e : Fin 200000) (p : Fin 256) :
    concatenate S200000x512 1 [⟨S200000x256, A⟩, ⟨S200000x256, B⟩] concatenates_S200000x256_S200000x256_S200000x512_d1
        (ix2 e (⟨p.val, by have := p.isLt; omega⟩ : Fin 512)) = A (ix2 e p) :=
  concatenate_pair_apply_left (t := S200000x512) (s₁ := S200000x256) (s₂ := S200000x256) 1 A B
    concatenates_S200000x256_S200000x256_S200000x512_d1 (ix2 e (⟨p.val, by have := p.isLt; omega⟩ : Fin 512)) rfl (ix2 e p)
    (fun b => match b with | ⟨0, _⟩ => rfl | ⟨1, _⟩ => rfl)

/-- Position `256 + p` of edge `e`'s joined row is entry `p` of its second row. -/
theorem joined_high (A B : (⟨S200000x256, .f32⟩ : BufTy).Contents (Elt Ideal)) (e : Fin 200000) (p : Fin 256) :
    concatenate S200000x512 1 [⟨S200000x256, A⟩, ⟨S200000x256, B⟩] concatenates_S200000x256_S200000x256_S200000x512_d1
        (ix2 e (⟨256 + p.val, by have := p.isLt; omega⟩ : Fin 512)) = B (ix2 e p) :=
  concatenate_pair_apply_right (t := S200000x512) (s₁ := S200000x256) (s₂ := S200000x256) 1 A B
    concatenates_S200000x256_S200000x256_S200000x512_d1 (ix2 e (⟨256 + p.val, by have := p.isLt; omega⟩ : Fin 512)) rfl rfl (ix2 e p)
    (fun b => match b with | ⟨0, _⟩ => fun _ => rfl | ⟨1, _⟩ => fun h => absurd rfl h)
    (by show p.val + 256 = 256 + p.val; omega)

/-! ## The result, entry by entry -/

/-- Entry `(e, j)` of the reference's result is `edgeLogitCat` of edge `e`'s joined row. -/
theorem result_apply_joined (x0 : (⟨S50000x128, .f32⟩ : BufTy).Contents (Elt Ideal)) (x1 : (⟨S2x200000, .i32⟩ : BufTy).Contents (Elt Ideal))
    (x2 : (⟨S128x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (x8 : (⟨S512x256, .f32⟩ : BufTy).Contents (Elt Ideal)) (x9 : (⟨S256, .f32⟩ : BufTy).Contents (Elt Ideal))
    (x10 : (⟨S256x128, .f32⟩ : BufTy).Contents (Elt Ideal)) (x11 : (⟨S128, .f32⟩ : BufTy).Contents (Elt Ideal))
    (x12 : (⟨S128x18, .f32⟩ : BufTy).Contents (Elt Ideal)) (x13 : (⟨S18, .f32⟩ : BufTy).Contents (Elt Ideal)) (e : Fin 200000) (j : Fin 18) :
    val_main_v116 (F := Ideal) x0 x1 x2 x3 x4 x5 x6 x7 x8 x9 x10 x11 x12 x13 (ix2 e j)
      = edgeLogitCat z (fun q => val_main_v102 (F := Ideal) x0 x1 x2 x3 x4 x5 x6 x7 (ix2 e q)) (fun q l => x8 (ix2 q l))
          (fun l => x9 (ix1 l)) (fun l k => x10 (ix2 l k)) (fun k => x11 (ix1 k)) (fun k j => x12 (ix2 k j))
          (fun j => x13 (ix1 j)) j := by
  have hA : ∀ k : Fin 128, lidx_main_v113 (ix2 e j) k = ix2 e k := fun k => funext fun a => Fin.ext (by
    match a with | ⟨0, _⟩ => rfl | ⟨1, _⟩ => rfl)
  have hF : ∀ k : Fin 128, ridx_main_v113 (ix2 e j) k = ix2 k j := fun k => funext fun a => Fin.ext (by
    match a with | ⟨0, _⟩ => rfl | ⟨1, _⟩ => rfl)
  have hB : ∀ (k : Fin 128) (l : Fin 256), lidx_main_v108 (ix2 e k) l = ix2 e l := fun k l => funext fun a => Fin.ext (by
    match a with | ⟨0, _⟩ => rfl | ⟨1, _⟩ => rfl)
  have hE : ∀ (k : Fin 128) (l : Fin 256), ridx_main_v108 (ix2 e k) l = ix2 l k := fun k l => funext fun a => Fin.ext (by
    match a with | ⟨0, _⟩ => rfl | ⟨1, _⟩ => rfl)
  have hC : ∀ (l : Fin 256) (q : Fin 512), lidx_main_v103 (ix2 e l) q = ix2 e q := fun l q => funext fun a => Fin.ext (by
    match a with | ⟨0, _⟩ => rfl | ⟨1, _⟩ => rfl)
  have hD : ∀ (l : Fin 256) (q : Fin 512), ridx_main_v103 (ix2 e l) q = ix2 q l := fun l q => funext fun a => Fin.ext (by
    match a with | ⟨0, _⟩ => rfl | ⟨1, _⟩ => rfl)
  have hG : ∀ l : Fin 256, idx_main_v104 (idx_main_v105 (ix2 e l)) = ix1 l := fun l => funext fun a => Fin.ext (by
    match a with | ⟨0, _⟩ => rfl)
  have hH : ∀ k : Fin 128, idx_main_v109 (idx_main_v110 (ix2 e k)) = ix1 k := fun k => funext fun a => Fin.ext (by
    match a with | ⟨0, _⟩ => rfl)
  have hI : idx_main_v114 (idx_main_v115 (ix2 e j)) = ix1 j := funext fun a => Fin.ext (by
    match a with | ⟨0, _⟩ => rfl)
  rw [val_main_v116_apply, val_main_v113_apply, val_main_v115_apply, val_main_v114_apply, hI]
  simp only [hA, hF, val_main_v112_apply, val_main_v111_apply, val_main_v108_apply, val_main_v110_apply, val_main_v109_apply,
    val_main_call3_v0_apply, val_main_call3_cst_apply, hB, hE, hH, val_main_v107_apply, val_main_v106_apply,
    val_main_v103_apply, val_main_v105_apply, val_main_v104_apply, val_main_call2_v0_apply, val_main_call2_cst_apply,
    hC, hD, hG]
  rfl

/-- THE REFERENCE'S RESULT, entry `(e, j)`: `edgeLogit` of edge `e`'s source row and target row (the two gathered arrays
    `val_main_v94` and `val_main_v101`, unopened) against the upper and the lower half of the first-layer matrix. -/
theorem result_apply (x0 : (⟨S50000x128, .f32⟩ : BufTy).Contents (Elt Ideal)) (x1 : (⟨S2x200000, .i32⟩ : BufTy).Contents (Elt Ideal))
    (x2 : (⟨S128x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (x8 : (⟨S512x256, .f32⟩ : BufTy).Contents (Elt Ideal)) (x9 : (⟨S256, .f32⟩ : BufTy).Contents (Elt Ideal))
    (x10 : (⟨S256x128, .f32⟩ : BufTy).Contents (Elt Ideal)) (x11 : (⟨S128, .f32⟩ : BufTy).Contents (Elt Ideal))
    (x12 : (⟨S128x18, .f32⟩ : BufTy).Contents (Elt Ideal)) (x13 : (⟨S18, .f32⟩ : BufTy).Contents (Elt Ideal)) (e : Fin 200000) (j : Fin 18) :
    val_main_v116 (F := Ideal) x0 x1 x2 x3 x4 x5 x6 x7 x8 x9 x10 x11 x12 x13 (ix2 e j)
      = edgeLogit z (fun p => val_main_v94 (F := Ideal) x0 x1 x2 x3 x4 x5 x6 x7 (ix2 e p)) (fun p => val_main_v101 (F := Ideal) x0 x1 x2 x3 x4 x5 x6 x7 (ix2 e p))
          (fun p l => x8 (ix2 (⟨p.val, by have := p.isLt; omega⟩ : Fin 512) l))
          (fun p l => x8 (ix2 (⟨256 + p.val, by have := p.isLt; omega⟩ : Fin 512) l))
          (fun l => x9 (ix1 l)) (fun l k => x10 (ix2 l k)) (fun k => x11 (ix1 k)) (fun k j => x12 (ix2 k j))
          (fun j => x13 (ix1 j)) j := by
  rw [result_apply_joined, edgeLogitCat_eq]
  exact congrArg₂ (fun u v => edgeLogit z u v
      (fun p l => x8 (ix2 (⟨p.val, by have := p.isLt; omega⟩ : Fin 512) l))
      (fun p l => x8 (ix2 (⟨256 + p.val, by have := p.isLt; omega⟩ : Fin 512) l))
      (fun l => x9 (ix1 l)) (fun l k => x10 (ix2 l k)) (fun k => x11 (ix1 k)) (fun k j => x12 (ix2 k j))
      (fun j => x13 (ix1 j)) j)
    (funext fun p => joined_low (val_main_v94 (F := Ideal) x0 x1 x2 x3 x4 x5 x6 x7) (val_main_v101 (F := Ideal) x0 x1 x2 x3 x4 x5 x6 x7) e p)
    (funext fun p => joined_high (val_main_v94 (F := Ideal) x0 x1 x2 x3 x4 x5 x6 x7) (val_main_v101 (F := Ideal) x0 x1 x2 x3 x4 x5 x6 x7) e p)

end Cert.ReferenceIdeal.Rows

end
-- ==== Proof.HostOperands.lean ====
/-
  The small operands as the region finds them.

  Before the kernel is launched the host cuts the 512 × 256 first-layer matrix into its upper 256 rows and its lower 256
  rows, and turns each bias vector of length n into a 1 × n array. Nothing else is done to them. Read at an index:
  entry `(p, l)` of the upper half is entry `(p, l)` of the matrix, entry `(p, l)` of the lower half is entry
  `(256 + p, l)`, and entry `(0, l)` of a bias row is entry `l` of the bias vector.
-/
import proofs.«148113_j24017457119604_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Operands

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## The arrays, as operations of the arguments -/

set_option maxHeartbeats 4000000 in
theorem upper_half (c : Dev nD) : (V m c main_v102 : S256x256.Idx → EReal)
    = extractStridedSlice S256x256 ![0, 0] (m ((c : Thread nD τ).loc main_arg8)) slices_S512x256_S256x256_0_0 := by
  dsimp only [V]
  simp only [hostOps0, hostOps0_1, hostOps0_2, hostOps0_3, hostOps0_4, List.flatten_cons, List.flatten_nil, List.append_nil, List.cons_append, List.nil_append]
  after_results_simp

set_option maxHeartbeats 4000000 in
theorem lower_half (c : Dev nD) : (V m c main_v103 : S256x256.Idx → EReal)
    = extractStridedSlice S256x256 ![256, 0] (m ((c : Thread nD τ).loc main_arg8)) slices_S512x256_S256x256_256_0 := by
  dsimp only [V]
  simp only [hostOps0, hostOps0_1, hostOps0_2, hostOps0_3, hostOps0_4, List.flatten_cons, List.flatten_nil, List.append_nil, List.cons_append, List.nil_append]
  after_results_simp

set_option maxHeartbeats 4000000 in
theorem bias0_row (c : Dev nD) : (V m c main_v104 : S1x256.Idx → EReal)
    = shapeCast S1x256 (m ((c : Thread nD τ).loc main_arg9)) shapeCasts_S256_S1x256 := by
  dsimp only [V]
  simp only [hostOps0, hostOps0_1, hostOps0_2, hostOps0_3, hostOps0_4, List.flatten_cons, List.flatten_nil, List.append_nil, List.cons_append, List.nil_append]
  after_results_simp
  rfl

set_option maxHeartbeats 4000000 in
theorem bias1_row (c : Dev nD) : (V m c main_v105 : S1x128.Idx → EReal)
    = shapeCast S1x128 (m ((c : Thread nD τ).loc main_arg11)) shapeCasts_S128_S1x128 := by
  dsimp only [V]
  simp only [hostOps0, hostOps0_1, hostOps0_2, hostOps0_3, hostOps0_4, List.flatten_cons, List.flatten_nil, List.append_nil, List.cons_append, List.nil_append]
  after_results_simp
  rfl

set_option maxHeartbeats 4000000 in
theorem bias2_row (c : Dev nD) : (V m c main_v106 : S1x18.Idx → EReal)
    = shapeCast S1x18 (m ((c : Thread nD τ).loc main_arg13)) shapeCasts_S18_S1x18 := by
  dsimp only [V]
  simp only [hostOps0, hostOps0_1, hostOps0_2, hostOps0_3, hostOps0_4, List.flatten_cons, List.flatten_nil, List.append_nil, List.cons_append, List.nil_append]
  after_results_simp
  rfl

/-! ## The same, entry by entry -/

theorem upper_half_apply (c : Dev nD) (p l : Fin 256) :
    V m c main_v102 (ix2 p l) = (m ((c : Thread nD τ).loc main_arg8)) (ix2 (⟨p.val, by have := p.isLt; omega⟩ : Fin 512) l) := by
  rw [upper_half m c]
  exact slice2_axis0_apply 0 _ _ p l _ (Nat.zero_add _).symm

theorem lower_half_apply (c : Dev nD) (p l : Fin 256) :
    V m c main_v103 (ix2 p l) = (m ((c : Thread nD τ).loc main_arg8)) (ix2 (⟨256 + p.val, by have := p.isLt; omega⟩ : Fin 512) l) := by
  rw [lower_half m c]
  exact slice2_axis0_apply 256 _ _ p l _ rfl

theorem bias0_apply (c : Dev nD) (l : Fin 256) :
    V m c main_v104 (ix2 (0 : Fin 1) l) = (m ((c : Thread nD τ).loc main_arg9)) (ix1 l) := by
  rw [bias0_row m c]
  exact shapeCast_a_1a_apply _ _ 0 l

theorem bias1_apply (c : Dev nD) (k : Fin 128) :
    V m c main_v105 (ix2 (0 : Fin 1) k) = (m ((c : Thread nD τ).loc main_arg11)) (ix1 k) := by
  rw [bias1_row m c]
  exact shapeCast_a_1a_apply _ _ 0 k

theorem bias2_apply (c : Dev nD) (j : Fin 18) :
    V m c main_v106 (ix2 (0 : Fin 1) j) = (m ((c : Thread nD τ).loc main_arg13)) (ix1 j) := by
  rw [bias2_row m c]
  exact shapeCast_a_1a_apply _ _ 0 j

end Cert.KernelIdeal.Operands

end
-- ==== Proof.HostSourceRows.lean ====
/-
  The gathered source rows, as the region finds them, are the reference's.

  Both programs compute the node embeddings with the same host operations, in the same order, from the same eight
  arguments (the node features, the edge list, and the three graph-convolution layers' matrices and biases), and then
  gather them along the edges' sources. The kernel's program does this before its region is entered; the array the
  region finds is therefore the very term the reference's own reading names, operation for operation. The graph
  convolution itself — its scatter-adds, gathers and products — is never opened here: the two sides are the same
  composition of the same operations, and that is all that is used.
-/
import proofs.«148113_j24017457119604_2_alg».proof.Proof.Gen.KernelIdeal.Frame
import proofs.«148113_j24017457119604_2_alg».proof.Proof.Gen.ReferenceIdeal.Read
import Idealize.ShloMosaic.Lib.StableHlo.Run

noncomputable section

namespace Cert.KernelIdeal.Operands

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxRecDepth 16384 in
set_option maxHeartbeats 40000000 in
theorem source_rows (c : Dev nD) : (V m c main_v94 : S200000x256.Idx → EReal)
    = Cert.ReferenceIdeal.Read.val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  dsimp only [V]
  simp only [hostOps0, hostOps0_1, hostOps0_2, hostOps0_3, hostOps0_4, List.flatten_cons, List.flatten_nil, List.append_nil, List.cons_append, List.nil_append]
  after_results_simp
  rfl

end Cert.KernelIdeal.Operands

end
-- ==== Proof.HostTargetRows.lean ====
/-
  The gathered target rows, as the region finds them, are the reference's.

  Both programs compute the node embeddings with the same host operations, in the same order, from the same eight
  arguments (the node features, the edge list, and the three graph-convolution layers' matrices and biases), and then
  gather them along the edges' targets. The kernel's program does this before its region is entered; the array the
  region finds is therefore the very term the reference's own reading names, operation for operation. The graph
  convolution itself — its scatter-adds, gathers and products — is never opened here: the two sides are the same
  composition of the same operations, and that is all that is used.
-/
import proofs.«148113_j24017457119604_2_alg».proof.Proof.Gen.KernelIdeal.Frame
import proofs.«148113_j24017457119604_2_alg».proof.Proof.Gen.ReferenceIdeal.Read
import Idealize.ShloMosaic.Lib.StableHlo.Run

noncomputable section

namespace Cert.KernelIdeal.Operands

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxRecDepth 16384 in
set_option maxHeartbeats 40000000 in
theorem target_rows (c : Dev nD) : (V m c main_v101 : S200000x256.Idx → EReal)
    = Cert.ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  dsimp only [V]
  simp only [hostOps0, hostOps0_1, hostOps0_2, hostOps0_3, hostOps0_4, List.flatten_cons, List.flatten_nil, List.append_nil, List.cons_append, List.nil_append]
  after_results_simp
  rfl

end Cert.KernelIdeal.Operands

end
-- ==== Proof.lean ====
/-
  An edge classifier on top of a three-layer graph convolution: the kernel's program against its reference.

  Both programs compute the node embeddings on the host with the same operations and gather them along each edge's
  source and target. They differ in the classifier only. The reference joins an edge's two rows of 256 into one row
  of 512 and multiplies it by the 512 × 256 first-layer matrix; the kernel, working on tiles of 4000 edges, multiplies
  the source row by the matrix's upper 256 rows and the target row by its lower 256 rows and adds the two products.
  These agree on the extended reals because a sum over 512 positions is the sum over the first 256 plus the sum over
  the last 256 — commutativity and associativity of addition, with no appeal to finiteness. Everything after the
  first layer (bias, `max` with zero, the 256 × 128 and 128 × 18 layers) is the same formula on both sides, a change
  of float format being the identity and a product accumulated into zero being the plain sum.

  The pieces: `EdgeClassifier` states the classifier and the splitting law; `KernelRow` reads the kernel body's stored
  tile entry by entry; `KernelArray` assembles the 50 tiles into one array; `HostOperands`, `HostSourceRows`,
  `HostTargetRows` say what the region finds in its operands; `ReferenceRow` reads the reference's result entry by
  entry. Here the two are set side by side and the five claims concluded. No rewrite was made when the kernel was
  idealized, so that claim is `True`; the three frames are the programs' runs with the value dropped.
-/
import proofs.«148113_j24017457119604_2_alg».proof.Defs
import proofs.«148113_j24017457119604_2_alg».proof.Proof.Gen.Kernel
import proofs.«148113_j24017457119604_2_alg».proof.Proof.Gen.Kernel.Skeleton
import proofs.«148113_j24017457119604_2_alg».proof.Proof.Gen.Kernel.Launch
import proofs.«148113_j24017457119604_2_alg».proof.Proof.Gen.Kernel.Points
import proofs.«148113_j24017457119604_2_alg».proof.Proof.Gen.Kernel.Frame
import proofs.«148113_j24017457119604_2_alg».proof.Proof.Gen.KernelIdeal
import proofs.«148113_j24017457119604_2_alg».proof.Proof.Gen.KernelIdeal.Skeleton
import proofs.«148113_j24017457119604_2_alg».proof.Proof.Gen.KernelIdeal.Launch
import proofs.«148113_j24017457119604_2_alg».proof.Proof.Gen.KernelIdeal.Points
import proofs.«148113_j24017457119604_2_alg».proof.Proof.Gen.KernelIdeal.Frame
import proofs.«148113_j24017457119604_2_alg».proof.Proof.Gen.ReferenceIdeal
import proofs.«148113_j24017457119604_2_alg».proof.Proof.Gen.Pre_finite_inputs
import proofs.«148113_j24017457119604_2_alg».proof.Proof.Gen.KernelIdeal.Value
import proofs.«148113_j24017457119604_2_alg».proof.Proof.Gen.ReferenceIdeal.Run
import proofs.«148113_j24017457119604_2_alg».proof.Proof.Gen.ReferenceIdeal.Read
import proofs.«148113_j24017457119604_2_alg».proof.Proof.KernelArray
import proofs.«148113_j24017457119604_2_alg».proof.Proof.ReferenceRow
import proofs.«148113_j24017457119604_2_alg».proof.Proof.HostOperands
import proofs.«148113_j24017457119604_2_alg».proof.Proof.HostSourceRows
import proofs.«148113_j24017457119604_2_alg».proof.Proof.HostTargetRows
import Idealize.ShloMosaic.Adequacy
import Idealize.ShloMosaic.Init

noncomputable section

namespace Cert.Proof

open Idealize.ShloMosaic Idealize.ShloMosaic.TcCoe Idealize.SL.Sem

/-- The kernel's array of logits, over the operands the region finds, IS the reference's result as a function of the
    arguments: entry by entry both are `edgeLogit` of the edge's gathered source row and target row against the two
    halves of the first-layer matrix and the later layers. -/
theorem logits_eq_reference (m : (ℓ : Loc Cert.KernelIdeal.nD Cert.KernelIdeal.τ Cert.KernelIdeal.sig) → Buf (Elt Ideal) ℓ) (c : Dev Cert.KernelIdeal.nD) :
    Cert.KernelIdeal.Whole.logits (Cert.KernelIdeal.Gen.V m c Cert.KernelIdeal.main_v94) (Cert.KernelIdeal.Gen.V m c Cert.KernelIdeal.main_v101) (Cert.KernelIdeal.Gen.V m c Cert.KernelIdeal.main_v102) (Cert.KernelIdeal.Gen.V m c Cert.KernelIdeal.main_v103) (Cert.KernelIdeal.Gen.V m c Cert.KernelIdeal.main_v104) (Cert.KernelIdeal.Gen.V m c Cert.KernelIdeal.main_arg10) (Cert.KernelIdeal.Gen.V m c Cert.KernelIdeal.main_v105) (Cert.KernelIdeal.Gen.V m c Cert.KernelIdeal.main_arg12) (Cert.KernelIdeal.Gen.V m c Cert.KernelIdeal.main_v106)
      = Cert.ReferenceIdeal.Read.val_main_v116 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
        (m ((c : Thread Cert.KernelIdeal.nD Cert.KernelIdeal.τ).loc Cert.KernelIdeal.main_arg5))
        (m ((c : Thread Cert.KernelIdeal.nD Cert.KernelIdeal.τ).loc Cert.KernelIdeal.main_arg6))
        (m ((c : Thread Cert.KernelIdeal.nD Cert.KernelIdeal.τ).loc Cert.KernelIdeal.main_arg7))
        (m ((c : Thread Cert.KernelIdeal.nD Cert.KernelIdeal.τ).loc Cert.KernelIdeal.main_arg8))
        (m ((c : Thread Cert.KernelIdeal.nD Cert.KernelIdeal.τ).loc Cert.KernelIdeal.main_arg9))
        (m ((c : Thread Cert.KernelIdeal.nD Cert.KernelIdeal.τ).loc Cert.KernelIdeal.main_arg10))
        (m ((c : Thread Cert.KernelIdeal.nD Cert.KernelIdeal.τ).loc Cert.KernelIdeal.main_arg11))
        (m ((c : Thread Cert.KernelIdeal.nD Cert.KernelIdeal.τ).loc Cert.KernelIdeal.main_arg12))
        (m ((c : Thread Cert.KernelIdeal.nD Cert.KernelIdeal.τ).loc Cert.KernelIdeal.main_arg13)) := by
  funext i
  obtain ⟨e, j, rfl⟩ : ∃ (e : Fin 200000) (j : Fin 18), i = ValueIdx.ix2 e j := ⟨i 0, i 1, ValueIdx.eq_ix2 i⟩
  rw [Cert.ReferenceIdeal.Rows.result_apply]
  show Cert.KernelIdeal.Whole.logitAt (Cert.KernelIdeal.Gen.V m c Cert.KernelIdeal.main_v94) (Cert.KernelIdeal.Gen.V m c Cert.KernelIdeal.main_v101) (Cert.KernelIdeal.Gen.V m c Cert.KernelIdeal.main_v102) (Cert.KernelIdeal.Gen.V m c Cert.KernelIdeal.main_v103) (Cert.KernelIdeal.Gen.V m c Cert.KernelIdeal.main_v104) (Cert.KernelIdeal.Gen.V m c Cert.KernelIdeal.main_arg10) (Cert.KernelIdeal.Gen.V m c Cert.KernelIdeal.main_v105) (Cert.KernelIdeal.Gen.V m c Cert.KernelIdeal.main_arg12) (Cert.KernelIdeal.Gen.V m c Cert.KernelIdeal.main_v106) e j = _
  unfold Cert.KernelIdeal.Whole.logitAt
  rw [Cert.KernelIdeal.Operands.source_rows m c, Cert.KernelIdeal.Operands.target_rows m c]
  simp only [Cert.KernelIdeal.Operands.upper_half_apply m c, Cert.KernelIdeal.Operands.lower_half_apply m c, Cert.KernelIdeal.Operands.bias0_apply m c,
    Cert.KernelIdeal.Operands.bias1_apply m c, Cert.KernelIdeal.Operands.bias2_apply m c, Cert.KernelIdeal.Gen.V_main_arg10 m c, Cert.KernelIdeal.Gen.V_main_arg12 m c]

/-- The word-level kernel's program runs and leaves its arguments as they were. -/
theorem frame_kernel : Cert.frame_Kernel := fun m ρ _ => Cert.Kernel.Gen.frame m ρ

/-- So does the idealized kernel's program. -/
theorem frame_kernel_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten when the kernel was idealized. -/
theorem preserves : Cert.preserves_Kernel_KernelIdeal := trivial

/-- From memories that agree on the arguments both programs end with the same array of logits: the kernel's run ends at
    `logits` of its operands, which is the reference's function of the arguments (`logits_eq_reference`), and the
    reference's run ends at that function of its own, equal, arguments. -/
theorem algebraic : Cert.algebraic_KernelIdeal_ReferenceIdeal := by
  intro m ρ m' ρ' _ hagree
  refine ⟨fun c => Cert.ReferenceIdeal.Read.val_main_v116 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
        (m ((c : Thread Cert.KernelIdeal.nD Cert.KernelIdeal.τ).loc Cert.KernelIdeal.main_arg5))
        (m ((c : Thread Cert.KernelIdeal.nD Cert.KernelIdeal.τ).loc Cert.KernelIdeal.main_arg6))
        (m ((c : Thread Cert.KernelIdeal.nD Cert.KernelIdeal.τ).loc Cert.KernelIdeal.main_arg7))
        (m ((c : Thread Cert.KernelIdeal.nD Cert.KernelIdeal.τ).loc Cert.KernelIdeal.main_arg8))
        (m ((c : Thread Cert.KernelIdeal.nD Cert.KernelIdeal.τ).loc Cert.KernelIdeal.main_arg9))
        (m ((c : Thread Cert.KernelIdeal.nD Cert.KernelIdeal.τ).loc Cert.KernelIdeal.main_arg10))
        (m ((c : Thread Cert.KernelIdeal.nD Cert.KernelIdeal.τ).loc Cert.KernelIdeal.main_arg11))
        (m ((c : Thread Cert.KernelIdeal.nD Cert.KernelIdeal.τ).loc Cert.KernelIdeal.main_arg12))
        (m ((c : Thread Cert.KernelIdeal.nD Cert.KernelIdeal.τ).loc Cert.KernelIdeal.main_arg13)), ?_, ?_⟩
  · exact (θ_run Cert.KernelIdeal.defs _ _).mono
      (fun r h c => ⟨(h c).1.trans ((Cert.KernelIdeal.Whole.final m c).trans (logits_eq_reference m c)), (h c).2⟩)
      (Cert.KernelIdeal.Value.run_blocks m ρ)
  · refine (θ_run Cert.ReferenceIdeal.defs _ _).mono (fun r h c => ⟨?_, (h c).2⟩) (Cert.ReferenceIdeal.Value.run (F := Ideal) m' ρ')
    obtain ⟨a0, a1, a2, a3, a4, a5, a6, a7, a8, a9, a10, a11, a12, a13⟩ := hagree c
    rw [(h c).1, Cert.ReferenceIdeal.Read.val_main_v116_eq, a0, a1, a2, a3, a4, a5, a6, a7, a8, a9, a10, a11, a12, a13]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
